-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x256 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S256 : Shape := ⟨1, ![256]⟩
abbrev S2048x256 : Shape := ⟨2, ![2048, 256]⟩
abbrev S1x256 : Shape := ⟨2, ![1, 256]⟩
abbrev S2048x1 : Shape := ⟨2, ![2048, 1]⟩
abbrev S1024x256 : Shape := ⟨2, ![1024, 256]⟩
abbrev S2048x1024 : Shape := ⟨2, ![2048, 1024]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256, .f32⟩
  | .hbm, ⟨4, _⟩ => ⟨S8192x256, .bf16⟩
  | .hbm, ⟨5, _⟩ => ⟨S8192x256, .bf16⟩
  | .hbm, ⟨6, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S8192x256, .bf16⟩
  | .local _ .vmem, ⟨9, _⟩ => ⟨S2048x256, .f32⟩
  | .local _ .vmem, ⟨10, _⟩ => ⟨S2048x256, .f32⟩
  | .local _ .vmem, ⟨11, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S1024x256 : 0 < S1024x256.numel
  shapeCasts_S1024x256_S1024x256 : S1024x256.ShapeCasts S1024x256
  shapeCasts_S2048x256_S2048x256 : S2048x256.ShapeCasts S2048x256
  reduces_S2048x1024_S2048 : S2048x1024.Reduces [1] S2048
  shapeCasts_S2048_S2048x1 : S2048.ShapeCasts S2048x1
  broadcasts_S2048x1_S2048x256 : S2048x1.Broadcasts S2048x256
  dot_S2048x256_S256x256_S2048x256_1_1_0_0_n_n_wf : DotDims.WF S2048x256 S256x256 S2048x256 [1] [1] [0] [0] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .bf16 = 32 ∨ (Rect.block (s := S8192x256) S2048x256.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .bf16 = 32 ∨ (Rect.block (s := S8192x256) S2048x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256, .f32⟩
  | .hbm, ⟨4, _⟩ => ⟨S8192x256, .f32⟩
  | .hbm, ⟨5, _⟩ => ⟨S1x256, .f32⟩
  | .hbm, ⟨6, _⟩ => ⟨S8192x256, .f32⟩
  | .hbm, ⟨7, _⟩ => ⟨S8192x256, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S256x256_S8192x256_1_1_0_0_n_n_wf : DotDims.WF S8192x256 S256x256 S8192x256 [1] [1] [0] [0] [] []
  dot_S8192x256_S8192x256_S8192x8192_1_1_0_0_n_n_wf : DotDims.WF S8192x256 S8192x256 S8192x8192 [1] [1] [0] [0] [] []

variable [Facts₀]

def dot_S8192x256_S256x256_S8192x256_1_1_0_0_n_n : DotDims S8192x256 S256x256 S8192x256 where
  lhsContracting := [1]
  rhsContracting := [1]
  lhsNonContracting := [0]
  rhsNonContracting := [0]
  lhsBatch := []
  rhsBatch := []
  wf := dot_S8192x256_S256x256_S8192x256_1_1_0_0_n_n_wf
def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.K.Region0.lean ====
/-
  The projection kernel, grid point by grid point: what its one store leaves in the output window's buffer, as a
  function of the three input blocks; the body's triple; the proof data of the pipeline (every input's buffer holds
  its block at every point, the output's holds the stored value); the body obligation at every point.

  Point t of the grid (4 points) loads rows 2048 t … 2048 t + 2047 of y_b, all of W and all of b, and stores
  the 2048 by 256 block of the projection. Nothing is kept between points.
-/
import proofs.«129995_j6030134083663_2_alg».proof.Proof.Gen.Kernel.Launch
import proofs.«129995_j6030134083663_2_alg».proof.Proof.Gen.Kernel.Skeleton
import proofs.«129995_j6030134083663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the buffers' contents when the region is entered: a parameter, fixed by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data over
    the entry contents whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA : Rect S2048x256 := Rect.unit (s := S2048x256) ![0, 0] S2048x256.size inb_S2048x256_S2048x256_0_0
abbrev rW : Rect S256x256 := Rect.unit (s := S256x256) ![0, 0] S256x256.size inb_S256x256_S256x256_0_0
abbrev rB : Rect S256 := Rect.unit (s := S256) ![0] S256.size inb_S256_S256_0

/-- The output window's buffer after the body, from the three input blocks: its one store, over the whole buffer. -/
def out0_3 (x0 : Vec F S2048x256 .f32) (x1 : Vec F S256x256 .f32) (x2 : Vec F S256 .f32) : Vec F S2048x256 .bf16 :=
  View.canon [⟨rA, k0_pay1 (View.ld x0 rA) (View.ld x1 rW) (View.ld x2 rB)⟩]

/-- The store covers the buffer. -/
theorem cover0_3 (p0 : Vec F S2048x256 .bf16) (y : S2048x256.Idx) :
    ∃ pc ∈ ([⟨rA, p0⟩] : List (View.Piece (Elt F) S2048x256 .bf16)), y ∈ pc.1.set :=
  View.cover_of_tiled [⟨rA, p0⟩] S2048x256.size (by rfl) y

set_option maxHeartbeats 1000000 in
/-- The body on whole staging memrefs, the inputs' at their contents and the output's at anything, runs to the
    continuation holding the inputs' as they were and the output's at `out0_3` of the inputs'. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S2048x256 .bf16) (harg4 : arg4.IsWhole)
    (x0 : Vec F S2048x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the projection's pipeline on core `c`: the arrays as the region finds them; after the body at
    point `t` each input's buffer at its block and the output's at `out0_3` of the input blocks; the invariant the
    scoped buffers the kernel does not name and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Runs1.lean ====
/-
  The score kernel, what its three cases share: the conditions of its two branches decided over the grid, where its
  output window is idle, the staging and scratch memrefs, the region's invariant spelt buffer by buffer, and the input
  windows' blocks.

  The grid is 4 by 8; point t = 8 i + j handles rows 2048 i … 2048 i + 2047 of y_a and columns 1024 j … 1024 j + 1023 of
  the score matrix. The first branch (j = 0) resets the row accumulator kept in scratch; the second (j = 7) stores
  the output block. So three cases occur: j = 0, 0 < j < 7, j = 7.
-/
import proofs.«129995_j6030134083663_2_alg».proof.Proof.Gen.Kernel.Launch
import proofs.«129995_j6030134083663_2_alg».proof.Proof.Gen.Kernel.Skeleton
import proofs.«129995_j6030134083663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (by decide +kernel) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (by decide +kernel) (fun _ _ _ => rfl) (fun t => by rw [hafter]; unfold Dat.blockOf iblk1; rw [hA]; try rfl) t d).trans
    (by unfold Dat.fetched Dat.blockOf iblk1; rw [hA]; try rfl)

/-! ## The branches' conditions -/

/-- The first branch's condition from the grid coordinates: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the column-block coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S2048x256 .f32 := (Memref.whole cc1_stg2_0 : Memref sig .tc .vmem S2048x256 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The scratch operand: the row accumulators, one per row of the block. -/
abbrev scM1_0 : Memref sig .tc .vmem S2048x1 .f32 := Memref.whole cc1_scratch0
abbrev VS1_0 : View sig .tc .vmem S2048x1 .f32 := scM1_0.view

/-- A scoped buffer the score kernel does not name, at some contents. -/
abbrev anyAt (c : Dev nD) (b : Ref sig .tc) : sProp 𝕄 := iprop(∃ f : Buf (Elt F) ((c : Thread nD τ).loc b), ((c : Thread nD τ).loc b) ↦{fullShare} f)

/-- The region's invariant buffer by buffer: the projection kernel's six staging buffers at anything, the scratch
    owned at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg2_0 ∗ anyAt c cc0_stg3_0 ∗ anyAt c cc0_stg3_1
          ∗ (∃ d, owns (c : Thread nD τ) scM1_0 fullShare d)) ∗ (∃ r, prngReg c r)) := by
  unfold Pipeline.ΦA; rw [scopedRest1_eq]; simp only [scM1_0, owns_whole]; try rfl

end Cert.Kernel.Fr

end
-- ==== Proof.K.Run1A.lean ====
/-
  The score kernel's body in the case of a block row's first column block (j = 0): the accumulator is reset, then this
  block's contribution is added; the output window is left untouched. The stores' pieces are found by running the body.
-/
import proofs.«129995_j6030134083663_2_alg».proof.Proof.K.Runs1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The pieces the body's stores leave in the scratch (last first), with the body's triple: inputs at their contents,
    the untouched output handed back, the scratch at anything before and at its pieces written after. -/
noncomputable def kernelRun1_A (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) :
    Σ' (L2 : List (View.Piece (Elt F) S2048x256 .f32)), { LS0 : List (View.Piece (Elt F) S2048x1 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨[], ?_, fun xi2 E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run1B.lean ====
/-
  The score kernel's body in the case of a middle column block (0 < j < 7): this block's contribution is added to the
  accumulator the point before left; the output window is left untouched.
-/
import proofs.«129995_j6030134083663_2_alg».proof.Proof.K.Runs1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) :
    Σ' (L2 : List (View.Piece (Elt F) S2048x256 .f32)), { LS0 : List (View.Piece (Elt F) S2048x1 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨[], ?_, fun xi2 E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run1C.lean ====
/-
  The score kernel's body in the case of a block row's last column block (j = 7): this block's contribution is added
  to the accumulator, and the output block is stored: every column holds the accumulator times 1/256.
-/
import proofs.«129995_j6030134083663_2_alg».proof.Proof.K.Runs1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
noncomputable def kernelRun1_C (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) :
    Σ' (L2 : List (View.Piece (Elt F) S2048x256 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Region1.lean ====
/-
  The score kernel, grid point by grid point: what each case leaves in the output window's buffer and in the scratch;
  what they hold after every point, by recursion on the point (the accumulator carried from the point before); the
  region's invariant (the scratch at what the point before left); the pipeline's proof data; the body obligation.
-/
import proofs.«129995_j6030134083663_2_alg».proof.Proof.K.Run1A
import proofs.«129995_j6030134083663_2_alg».proof.Proof.K.Run1B
import proofs.«129995_j6030134083663_2_alg».proof.Proof.K.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output window's buffer: its pieces read back (none: the window is idle at these points, and nothing consults this value). -/
def out1_A_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) : Vec F S2048x256 .f32 :=
  VO1_2.read (Elt F) (VO1_2.writes (Elt F) VO1_2.junk (kernelRun1_A c i arg2 harg2 arg3 harg3 arg4 harg4 arg5 harg5 hc0 hc1 x0 x1).1)

/-- Case A's stores into the scratch cover it. -/
theorem scover1_A_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) (y : S2048x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x1.size (by sl_kernel_rfl) y

/-- What case A leaves in the scratch: its pieces read back. -/
def sout1_A_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) : Vec F S2048x1 .f32 :=
  VS1_0.read (Elt F) (VS1_0.writes (Elt F) VS1_0.junk (kernelRun1_A c i arg2 harg2 arg3 harg3 arg4 harg4 arg5 harg5 hc0 hc1 x0 x1).2.1)

/-- What case B leaves in the output window's buffer: its pieces read back (none: the window is idle at these points, and nothing consults this value). -/
def out1_B_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) : Vec F S2048x256 .f32 :=
  VO1_2.read (Elt F) (VO1_2.writes (Elt F) VO1_2.junk (kernelRun1_B c i arg2 harg2 arg3 harg3 arg4 harg4 arg5 harg5 hc0 hc1 x0 x1 xs0).1)

/-- Case B's stores into the scratch cover it. -/
theorem scover1_B_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) (y : S2048x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x1.size (by sl_kernel_rfl) y

/-- What case B leaves in the scratch: its pieces read back. -/
def sout1_B_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) : Vec F S2048x1 .f32 :=
  VS1_0.read (Elt F) (VS1_0.writes (Elt F) VS1_0.junk (kernelRun1_B c i arg2 harg2 arg3 harg3 arg4 harg4 arg5 harg5 hc0 hc1 x0 x1 xs0).2.1)

/-- What case C leaves in the output window's buffer: its pieces read back. -/
def out1_C_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) : Vec F S2048x256 .f32 :=
  VO1_2.read (Elt F) (VO1_2.writes (Elt F) VO1_2.junk (kernelRun1_C c i arg2 harg2 arg3 harg3 arg4 harg4 arg5 harg5 hc0 hc1 x0 x1 xs0).1)

/-- Case C's store into the output window covers its block. -/
theorem cover1_C_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) (y : S2048x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x256.size (by sl_kernel_rfl) y

/-- Case C's stores into the scratch cover it. -/
theorem scover1_C_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) (y : S2048x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x1.size (by sl_kernel_rfl) y

/-- What case C leaves in the scratch: its pieces read back. -/
def sout1_C_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) : Vec F S2048x1 .f32 :=
  VS1_0.read (Elt F) (VS1_0.writes (Elt F) VS1_0.junk (kernelRun1_C c i arg2 harg2 arg3 harg3 arg4 harg4 arg5 harg5 hc0 hc1 x0 x1 xs0).2.1)

/-! ## What the output window's buffer and the scratch hold after each point -/

/-- After the body at position `n`: the case the point is in, run at the point's memrefs and input blocks, the scratch
    it reads at what position `n - 1` left. (The output window's buffer, then the scratch.) -/
def outsAt1 (c : Dev nD) : (n : ℕ) → n < cfg1.N → Vec F S2048x256 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer the pipeline does not stage
    at anything; afterwards the scratch at what the point before left, the others at anything; the generator register
    at some state throughout. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg2_0 ∗ anyAt c cc0_stg3_0 ∗ anyAt c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg2_0 ∗ anyAt c cc0_stg3_0 ∗ anyAt c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg2_0 ∗ anyAt c cc0_stg3_0 ∗ anyAt c cc0_stg3_1 ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

set_option maxHeartbeats 4800000 in
/-- The body at any point: the inputs' memrefs hold their blocks; the point's position among the eight column blocks
    says which case it is in; the invariant hands the body the scratch at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves1_0, leaves1_1]
  have hN : t.val < 32 := lt_of_lt_of_eq t.isLt (show cfg1.N = 32 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨Ha1, Ha2, Ha3, Ha4, Ha5, Ha6, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Ha1, Ha2, Ha3, Ha4, Ha5, Ha6, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨Ha1, Ha2, Ha3, Ha4, Ha5, Ha6, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨Ha1, Ha2, Ha3, Ha4, Ha5, Ha6, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at anything. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha1, Ha2, Ha3, Ha4, Ha5, Ha6, HS0⟩, Hg⟩
  isplitl [HS0 Ha1 Ha2 Ha3 Ha4 Ha5 Ha6]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexists _; iexact HS0
  iexact Hg

end Cert.Kernel.Fr

end
-- ==== Proof.K.RunCond.lean ====
/-
  The run of @main, the two kernel regions taken as given: from one segment record per region, entered from and left at
  the thread states "core c holds every unscoped buffer at the stated contents", every weakly fair execution of @main
  terminates with the result array at what the second region leaves and every argument array as launched.
-/
import proofs.«129995_j6030134083663_2_alg».proof.Proof.Gen.Kernel.Regions

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ) (outs : Outs (F := F))

/-- After the last item the result buffer holds what region 1 left in it. -/
theorem V3_main_v2 (c : Dev nD) : V3 m outs c main_v2 = outs 3 main_v2 c := by
  simp only [V3, Function.update_self]

-- `θ_run_regions_kit_dev`'s implicit arguments are found by unifying its conclusion with this one, which takes unfolding
-- plain definitions in a metavariable's type
set_option backward.isDefEq.respectTransparency.types false in
/-- The run of @main given the two regions' segment records, with the RESULT named: every weakly fair execution from
    memory `m` with zero counters terminates, the result array ends at what region 1 is said to leave in it
    (`outs 3 main_v2`), and every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v2) = outs 3 main_v2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, hpost0 c, hpre1 c, (hpost1 c).trans (sep_mono .rfl (hE2 c))⟩)
    (hinit := ?_) (QY := fun c s => s.mem ((c.tc : Thread nD τ).loc main_v2) = outs 3 main_v2 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (V3_main_v2 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c)⟩
    · iexact HSI

end Cert.Kernel.Fr

end
-- ==== Proof.K.Chain.lean ====
/-
  The buffers' contents between @main's three items, and the two pipelines' proof data over them.

  @main runs the projection kernel (item 0), converts y_a to bf16 on the host (item 1) and runs the score kernel
  (item 2). Core c's unscoped buffers hold: at launch the memory; after item 0 the same with the projection's array at
  what its pipeline leaves; after item 1 that with the host operation applied; after item 2 that with the result array
  at what the score pipeline leaves. Each pipeline's proof data are stated over the contents its region is entered from.
-/
import proofs.«129995_j6030134083663_2_alg».proof.Proof.K.Region0
import proofs.«129995_j6030134083663_2_alg».proof.Proof.K.Region1
import proofs.«129995_j6030134083663_2_alg».proof.Proof.K.RunCond

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- What the projection kernel's region is entered from: the launch memory. -/
abbrev Ve0 : (c : Dev nD) → (b : Ref sig .tc) → Buf (Elt F) ((c : Thread nD τ).loc b) := fun c b => Gen.V0 m c b

/-- Core `c`'s unscoped buffers after item 0: the projection's array at what its pipeline leaves. -/
def U1 (c : Dev nD) : Valuation τ sig (Elt F) :=
  Function.update (Gen.V0 m c) main_v0 ((dat0 (Ve0 m) c).arrAt 3 cfg0.N)
/-- After item 1: the host conversion applied. -/
def U2 (c : Dev nD) : Valuation τ sig (Elt F) := StableHlo.after hostOps1 (U1 m c)
/-- What the score kernel's region is entered from. -/
abbrev Ve1 : (c : Dev nD) → (b : Ref sig .tc) → Buf (Elt F) ((c : Thread nD τ).loc b) := fun c b => U2 m c b
/-- After item 2: the result array at what the score pipeline leaves. -/
def U3 (c : Dev nD) : Valuation τ sig (Elt F) :=
  Function.update (U2 m c) main_v2 ((dat1 (Ve1 m) c).arrAt 2 cfg1.N)

/-- What the regions leave in the buffers they may change, as the conditional run takes it. -/
def outs : Outs (F := F) := fun J r c => if J = 1 then U1 m c r else U3 m c r

theorem outs1 (c : Dev nD) : outs m 1 main_v0 c = (dat0 (Ve0 m) c).arrAt 3 cfg0.N := by
  unfold outs U1; rw [if_pos rfl]; exact Function.update_self ..
theorem outs3 (c : Dev nD) : outs m 3 main_v2 c = (dat1 (Ve1 m) c).arrAt 2 cfg1.N := by
  unfold outs U3; rw [if_neg (by decide)]; exact Function.update_self ..

theorem V1_eq (c : Dev nD) : Gen.V1 m (outs m) c = U1 m c := by
  show Function.update (Gen.V0 m c) main_v0 (outs m 1 main_v0 c) = _
  rw [outs1]; rfl
theorem V2_eq (c : Dev nD) : Gen.V2 m (outs m) c = U2 m c := by
  show StableHlo.after hostOps1 (Gen.V1 m (outs m) c) = _
  rw [V1_eq]; rfl
theorem V3_eq (c : Dev nD) : Gen.V3 m (outs m) c = U3 m c := by
  show Function.update (Gen.V2 m (outs m) c) main_v2 (outs m 3 main_v2 c) = _
  rw [outs3, V2_eq]; rfl

/-- The two pipelines' proof data, each at its region's entry contents. -/
def pdats : (p : Fin 2) → (c : Dev nD) → Dat τ (Elt F) Unit ℕ (Pipeline.UD sig nD τ) ℕ (cfgs p) c
  | ⟨0, _⟩ => fun c => dat0 (Ve0 m) c
  | ⟨1, _⟩ => fun c => dat1 (Ve1 m) c

/-- No core owes another anything: no level is assigned. -/
abbrev Lz : GSem nD τ sig → Finset Unit := fun _ => ∅
abbrev lvz : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-! ## Each region's arrays at its exit, against the contents after it -/

theorem hF0 (c : Dev nD) (w : Fin 4) : (dat0 (Ve0 m) c).arrAt w cfg0.N = Gen.V1 m (outs m) c (Pipeline.arrRef spec0 w) := by
  match w with
  | ⟨0, _⟩ =>
    refine ((dat0 (Ve0 m) c).arrAt_in 0 rfl _).trans ?_
    refine (A_eq0 (Ve0 m) c 0).trans ?_
    exact (Gen.V1_of m (outs m) c main_arg1 (by decide)).symm
  | ⟨1, _⟩ =>
    refine ((dat0 (Ve0 m) c).arrAt_in 1 rfl _).trans ?_
    refine (A_eq0 (Ve0 m) c 1).trans ?_
    exact (Gen.V1_of m (outs m) c main_arg2 (by decide)).symm
  | ⟨2, _⟩ =>
    refine ((dat0 (Ve0 m) c).arrAt_in 2 rfl _).trans ?_
    refine (A_eq0 (Ve0 m) c 2).trans ?_
    exact (Gen.V1_of m (outs m) c main_arg3 (by decide)).symm
  | ⟨3, _⟩ =>
    refine (outs1 m c).symm.trans ?_
    simp only [Gen.V1, Function.update_self]
  | ⟨n + 4, h⟩ => exact absurd h (by omega)

theorem hrest0 (c : Dev nD) (b : Ref sig .tc) (hb : b ∉ Finset.univ.image (Pipeline.arrRef spec0)) :
    Gen.V1 m (outs m) c b = Gen.V0 m c b :=
  Gen.V1_of m (outs m) c b (by
    intro h
    simp only [List.mem_cons, List.mem_nil_iff, or_false] at h
    exact hb (Finset.mem_image.mpr ⟨3, Finset.mem_univ _, h.symm⟩))

theorem hF1 (c : Dev nD) (w : Fin 3) : (dat1 (Ve1 m) c).arrAt w cfg1.N = Gen.V3 m (outs m) c (Pipeline.arrRef spec1 w) := by
  have hV2 := V2_eq m c
  match w with
  | ⟨0, _⟩ =>
    refine ((dat1 (Ve1 m) c).arrAt_in 0 rfl _).trans ?_
    refine (A_eq1 (Ve1 m) c 0).trans ?_
    refine Eq.trans ?_ (Gen.V3_of m (outs m) c main_v1 (by decide)).symm
    exact (congrFun hV2 _).symm
  | ⟨1, _⟩ =>
    refine ((dat1 (Ve1 m) c).arrAt_in 1 rfl _).trans ?_
    refine (A_eq1 (Ve1 m) c 1).trans ?_
    refine Eq.trans ?_ (Gen.V3_of m (outs m) c main_v0 (by decide)).symm
    exact (congrFun hV2 _).symm
  | ⟨2, _⟩ =>
    refine (outs3 m c).symm.trans ?_
    simp only [Gen.V3, Function.update_self]
  | ⟨n + 3, h⟩ => exact absurd h (by omega)

theorem hrest1 (c : Dev nD) (b : Ref sig .tc) (hb : b ∉ Finset.univ.image (Pipeline.arrRef spec1)) :
    Gen.V3 m (outs m) c b = Gen.V2 m (outs m) c b :=
  Gen.V3_of m (outs m) c b (by
    intro h
    simp only [List.mem_cons, List.mem_nil_iff, or_false] at h
    exact hb (Finset.mem_image.mpr ⟨2, Finset.mem_univ _, h.symm⟩))

end Cert.Kernel.Fr

end
-- ==== Proof.K.Segs.lean ====
/-
  @main as three segments — the projection kernel's region, the host conversion, the score kernel's region — and the
  run of @main they give: every weakly fair execution terminates, the result array ends at what the score pipeline's
  proof data say, every argument array ends as launched.

  Each region's record says: entered from "every unscoped buffer at the stated contents" it splits its windows' arrays
  out, hands the pipeline its invariant, takes it back, and leaves "every unscoped buffer at the contents after it".
-/
import proofs.«129995_j6030134083663_2_alg».proof.Proof.K.Chain

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lz lvz 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (Ve0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lz lvz 1 fun _ _ => rfl
  pre c := iprop(StableHlo.held (c : Thread nD τ) (Pipeline.ucRefs τ sig) (Gen.V2 m (outs m) c) ∗ Rr c)
  post c := iprop(StableHlo.held (c : Thread nD τ) (Pipeline.ucRefs τ sig) (Gen.V3 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (Ve1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Ve1 m c) fun _ => rfl
    rw [Pipeline.unscopedBufs_held] at hsplit
    rw [V2_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (Ve1 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN. At the compiled mesh, from any memory with zero counters: every weakly fair execution of @main terminates,
    the result array ends at what the score pipeline leaves, and the four argument arrays end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v2) = outs m 3 main_v2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m (embL) () Variants.none Lz lvz (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

/-- THE FRAME: every weakly fair execution of @main terminates, faulting nowhere, the argument arrays unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Fr

end
-- ==== Proof.KI.Region0.lean ====
/-
  The projection kernel, grid point by grid point: what its one store leaves in the output window's buffer, as a
  function of the three input blocks; the body's triple; the proof data of the pipeline (every input's buffer holds
  its block at every point, the output's holds the stored value); the body obligation at every point.

  Point t of the grid (4 points) loads rows 2048 t … 2048 t + 2047 of y_b, all of W and all of b, and stores
  the 2048 by 256 block of the projection. Nothing is kept between points.
-/
import proofs.«129995_j6030134083663_2_alg».proof.Proof.Gen.KernelIdeal.Launch
import proofs.«129995_j6030134083663_2_alg».proof.Proof.Gen.KernelIdeal.Skeleton
import proofs.«129995_j6030134083663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the buffers' contents when the region is entered: a parameter, fixed by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data over
    the entry contents whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA : Rect S2048x256 := Rect.unit (s := S2048x256) ![0, 0] S2048x256.size inb_S2048x256_S2048x256_0_0
abbrev rW : Rect S256x256 := Rect.unit (s := S256x256) ![0, 0] S256x256.size inb_S256x256_S256x256_0_0
abbrev rB : Rect S256 := Rect.unit (s := S256) ![0] S256.size inb_S256_S256_0

/-- The output window's buffer after the body, from the three input blocks: its one store, over the whole buffer. -/
def out0_3 (x0 : Vec F S2048x256 .f32) (x1 : Vec F S256x256 .f32) (x2 : Vec F S256 .f32) : Vec F S2048x256 .bf16 :=
  View.canon [⟨rA, k0_pay1 (View.ld x0 rA) (View.ld x1 rW) (View.ld x2 rB)⟩]

/-- The store covers the buffer. -/
theorem cover0_3 (p0 : Vec F S2048x256 .bf16) (y : S2048x256.Idx) :
    ∃ pc ∈ ([⟨rA, p0⟩] : List (View.Piece (Elt F) S2048x256 .bf16)), y ∈ pc.1.set :=
  View.cover_of_tiled [⟨rA, p0⟩] S2048x256.size (by rfl) y

set_option maxHeartbeats 1000000 in
/-- The body on whole staging memrefs, the inputs' at their contents and the output's at anything, runs to the
    continuation holding the inputs' as they were and the output's at `out0_3` of the inputs'. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S2048x256 .bf16) (harg4 : arg4.IsWhole)
    (x0 : Vec F S2048x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the projection's pipeline on core `c`: the arrays as the region finds them; after the body at
    point `t` each input's buffer at its block and the output's at `out0_3` of the input blocks; the invariant the
    scoped buffers the kernel does not name and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Runs1.lean ====
/-
  The score kernel, what its three cases share: the conditions of its two branches decided over the grid, where its
  output window is idle, the staging and scratch memrefs, the region's invariant spelt buffer by buffer, and the input
  windows' blocks.

  The grid is 4 by 8; point t = 8 i + j handles rows 2048 i … 2048 i + 2047 of y_a and columns 1024 j … 1024 j + 1023 of
  the score matrix. The first branch (j = 0) resets the row accumulator kept in scratch; the second (j = 7) stores
  the output block. So three cases occur: j = 0, 0 < j < 7, j = 7.
-/
import proofs.«129995_j6030134083663_2_alg».proof.Proof.Gen.KernelIdeal.Launch
import proofs.«129995_j6030134083663_2_alg».proof.Proof.Gen.KernelIdeal.Skeleton
import proofs.«129995_j6030134083663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (by decide +kernel) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (by decide +kernel) (fun _ _ _ => rfl) (fun t => by rw [hafter]; unfold Dat.blockOf iblk1; rw [hA]; try rfl) t d).trans
    (by unfold Dat.fetched Dat.blockOf iblk1; rw [hA]; try rfl)

/-! ## The branches' conditions -/

/-- The first branch's condition from the grid coordinates: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the column-block coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S2048x256 .f32 := (Memref.whole cc1_stg2_0 : Memref sig .tc .vmem S2048x256 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The scratch operand: the row accumulators, one per row of the block. -/
abbrev scM1_0 : Memref sig .tc .vmem S2048x1 .f32 := Memref.whole cc1_scratch0
abbrev VS1_0 : View sig .tc .vmem S2048x1 .f32 := scM1_0.view

/-- A scoped buffer the score kernel does not name, at some contents. -/
abbrev anyAt (c : Dev nD) (b : Ref sig .tc) : sProp 𝕄 := iprop(∃ f : Buf (Elt F) ((c : Thread nD τ).loc b), ((c : Thread nD τ).loc b) ↦{fullShare} f)

/-- The region's invariant buffer by buffer: the projection kernel's six staging buffers at anything, the scratch
    owned at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg2_0 ∗ anyAt c cc0_stg3_0 ∗ anyAt c cc0_stg3_1
          ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.KI.Run1A.lean ====
/-
  The score kernel's body in the case of a block row's first column block (j = 0): the accumulator is reset, then this
  block's contribution is added; the output window is left untouched. The stores' pieces are found by running the body.
-/
import proofs.«129995_j6030134083663_2_alg».proof.Proof.KI.Runs1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The pieces the body's stores leave in the scratch (last first), with the body's triple: inputs at their contents,
    the untouched output handed back, the scratch at anything before and at its pieces written after. -/
noncomputable def kernelRun1_A (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) :
    Σ' (L2 : List (View.Piece (Elt F) S2048x256 .f32)), { LS0 : List (View.Piece (Elt F) S2048x1 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨[], ?_, fun xi2 E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run1B.lean ====
/-
  The score kernel's body in the case of a middle column block (0 < j < 7): this block's contribution is added to the
  accumulator the point before left; the output window is left untouched.
-/
import proofs.«129995_j6030134083663_2_alg».proof.Proof.KI.Runs1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) :
    Σ' (L2 : List (View.Piece (Elt F) S2048x256 .f32)), { LS0 : List (View.Piece (Elt F) S2048x1 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨[], ?_, fun xi2 E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run1C.lean ====
/-
  The score kernel's body in the case of a block row's last column block (j = 7): this block's contribution is added
  to the accumulator, and the output block is stored: every column holds the accumulator times 1/256.
-/
import proofs.«129995_j6030134083663_2_alg».proof.Proof.KI.Runs1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
noncomputable def kernelRun1_C (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) :
    Σ' (L2 : List (View.Piece (Elt F) S2048x256 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Region1.lean ====
/-
  The score kernel, grid point by grid point: what each case leaves in the output window's buffer and in the scratch;
  what they hold after every point, by recursion on the point (the accumulator carried from the point before); the
  region's invariant (the scratch at what the point before left); the pipeline's proof data; the body obligation.
-/
import proofs.«129995_j6030134083663_2_alg».proof.Proof.KI.Run1A
import proofs.«129995_j6030134083663_2_alg».proof.Proof.KI.Run1B
import proofs.«129995_j6030134083663_2_alg».proof.Proof.KI.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output window's buffer: its pieces read back (none: the window is idle at these points, and nothing consults this value). -/
def out1_A_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) : Vec F S2048x256 .f32 :=
  VO1_2.read (Elt F) (VO1_2.writes (Elt F) VO1_2.junk (kernelRun1_A c i arg2 harg2 arg3 harg3 arg4 harg4 arg5 harg5 hc0 hc1 x0 x1).1)

/-- Case A's stores into the scratch cover it. -/
theorem scover1_A_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) (y : S2048x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x1.size (by sl_kernel_rfl) y

/-- What case A leaves in the scratch: its pieces read back. -/
def sout1_A_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) : Vec F S2048x1 .f32 :=
  VS1_0.read (Elt F) (VS1_0.writes (Elt F) VS1_0.junk (kernelRun1_A c i arg2 harg2 arg3 harg3 arg4 harg4 arg5 harg5 hc0 hc1 x0 x1).2.1)

/-- What case B leaves in the output window's buffer: its pieces read back (none: the window is idle at these points, and nothing consults this value). -/
def out1_B_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) : Vec F S2048x256 .f32 :=
  VO1_2.read (Elt F) (VO1_2.writes (Elt F) VO1_2.junk (kernelRun1_B c i arg2 harg2 arg3 harg3 arg4 harg4 arg5 harg5 hc0 hc1 x0 x1 xs0).1)

/-- Case B's stores into the scratch cover it. -/
theorem scover1_B_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) (y : S2048x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x1.size (by sl_kernel_rfl) y

/-- What case B leaves in the scratch: its pieces read back. -/
def sout1_B_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) : Vec F S2048x1 .f32 :=
  VS1_0.read (Elt F) (VS1_0.writes (Elt F) VS1_0.junk (kernelRun1_B c i arg2 harg2 arg3 harg3 arg4 harg4 arg5 harg5 hc0 hc1 x0 x1 xs0).2.1)

/-- What case C leaves in the output window's buffer: its pieces read back. -/
def out1_C_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) : Vec F S2048x256 .f32 :=
  VO1_2.read (Elt F) (VO1_2.writes (Elt F) VO1_2.junk (kernelRun1_C c i arg2 harg2 arg3 harg3 arg4 harg4 arg5 harg5 hc0 hc1 x0 x1 xs0).1)

/-- Case C's store into the output window covers its block. -/
theorem cover1_C_2 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) (y : S2048x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x256.size (by sl_kernel_rfl) y

/-- Case C's stores into the scratch cover it. -/
theorem scover1_C_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) (y : S2048x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x1.size (by sl_kernel_rfl) y

/-- What case C leaves in the scratch: its pieces read back. -/
def sout1_C_0 (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) : Vec F S2048x1 .f32 :=
  VS1_0.read (Elt F) (VS1_0.writes (Elt F) VS1_0.junk (kernelRun1_C c i arg2 harg2 arg3 harg3 arg4 harg4 arg5 harg5 hc0 hc1 x0 x1 xs0).2.1)

/-! ## What the output window's buffer and the scratch hold after each point -/

/-- After the body at position `n`: the case the point is in, run at the point's memrefs and input blocks, the scratch
    it reads at what position `n - 1` left. (The output window's buffer, then the scratch.) -/
def outsAt1 (c : Dev nD) : (n : ℕ) → n < cfg1.N → Vec F S2048x256 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer the pipeline does not stage
    at anything; afterwards the scratch at what the point before left, the others at anything; the generator register
    at some state throughout. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg2_0 ∗ anyAt c cc0_stg3_0 ∗ anyAt c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg2_0 ∗ anyAt c cc0_stg3_0 ∗ anyAt c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg2_0 ∗ anyAt c cc0_stg3_0 ∗ anyAt c cc0_stg3_1 ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

set_option maxHeartbeats 4800000 in
/-- The body at any point: the inputs' memrefs hold their blocks; the point's position among the eight column blocks
    says which case it is in; the invariant hands the body the scratch at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves1_0, leaves1_1]
  have hN : t.val < 32 := lt_of_lt_of_eq t.isLt (show cfg1.N = 32 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨Ha1, Ha2, Ha3, Ha4, Ha5, Ha6, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Ha1, Ha2, Ha3, Ha4, Ha5, Ha6, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨Ha1, Ha2, Ha3, Ha4, Ha5, Ha6, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨Ha1, Ha2, Ha3, Ha4, Ha5, Ha6, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Ha1 Ha2 Ha3 Ha4 Ha5 Ha6]
      · isplitl [HS0 Ha1 Ha2 Ha3 Ha4 Ha5 Ha6]
        · isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at anything. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha1, Ha2, Ha3, Ha4, Ha5, Ha6, HS0⟩, Hg⟩
  isplitl [HS0 Ha1 Ha2 Ha3 Ha4 Ha5 Ha6]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexists _; iexact HS0
  iexact Hg

end Cert.KernelIdeal.Fr

end
-- ==== Proof.KI.RunCond.lean ====
/-
  The run of @main, the two kernel regions taken as given: from one segment record per region, entered from and left at
  the thread states "core c holds every unscoped buffer at the stated contents", every weakly fair execution of @main
  terminates with the result array at what the second region leaves and every argument array as launched.
-/
import proofs.«129995_j6030134083663_2_alg».proof.Proof.Gen.KernelIdeal.Regions

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ) (outs : Outs (F := F))

/-- After the last item the result buffer holds what region 1 left in it. -/
theorem V3_main_v2 (c : Dev nD) : V3 m outs c main_v2 = outs 3 main_v2 c := by
  simp only [V3, Function.update_self]

-- `θ_run_regions_kit_dev`'s implicit arguments are found by unifying its conclusion with this one, which takes unfolding
-- plain definitions in a metavariable's type
set_option backward.isDefEq.respectTransparency.types false in
/-- The run of @main given the two regions' segment records, with the RESULT named: every weakly fair execution from
    memory `m` with zero counters terminates, the result array ends at what region 1 is said to leave in it
    (`outs 3 main_v2`), and every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v2) = outs 3 main_v2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, hpost0 c, hpre1 c, (hpost1 c).trans (sep_mono .rfl (hE2 c))⟩)
    (hinit := ?_) (QY := fun c s => s.mem ((c.tc : Thread nD τ).loc main_v2) = outs 3 main_v2 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (V3_main_v2 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c)⟩
    · iexact HSI

end Cert.KernelIdeal.Fr

end
-- ==== Proof.KI.Chain.lean ====
/-
  The buffers' contents between @main's three items, and the two pipelines' proof data over them.

  @main runs the projection kernel (item 0), converts y_a to bf16 on the host (item 1) and runs the score kernel
  (item 2). Core c's unscoped buffers hold: at launch the memory; after item 0 the same with the projection's array at
  what its pipeline leaves; after item 1 that with the host operation applied; after item 2 that with the result array
  at what the score pipeline leaves. Each pipeline's proof data are stated over the contents its region is entered from.
-/
import proofs.«129995_j6030134083663_2_alg».proof.Proof.KI.Region0
import proofs.«129995_j6030134083663_2_alg».proof.Proof.KI.Region1
import proofs.«129995_j6030134083663_2_alg».proof.Proof.KI.RunCond

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- What the projection kernel's region is entered from: the launch memory. -/
abbrev Ve0 : (c : Dev nD) → (b : Ref sig .tc) → Buf (Elt F) ((c : Thread nD τ).loc b) := fun c b => Gen.V0 m c b

/-- Core `c`'s unscoped buffers after item 0: the projection's array at what its pipeline leaves. -/
def U1 (c : Dev nD) : Valuation τ sig (Elt F) :=
  Function.update (Gen.V0 m c) main_v0 ((dat0 (Ve0 m) c).arrAt 3 cfg0.N)
/-- After item 1: the host conversion applied. -/
def U2 (c : Dev nD) : Valuation τ sig (Elt F) := StableHlo.after hostOps1 (U1 m c)
/-- What the score kernel's region is entered from. -/
abbrev Ve1 : (c : Dev nD) → (b : Ref sig .tc) → Buf (Elt F) ((c : Thread nD τ).loc b) := fun c b => U2 m c b
/-- After item 2: the result array at what the score pipeline leaves. -/
def U3 (c : Dev nD) : Valuation τ sig (Elt F) :=
  Function.update (U2 m c) main_v2 ((dat1 (Ve1 m) c).arrAt 2 cfg1.N)

/-- What the regions leave in the buffers they may change, as the conditional run takes it. -/
def outs : Outs (F := F) := fun J r c => if J = 1 then U1 m c r else U3 m c r

theorem outs1 (c : Dev nD) : outs m 1 main_v0 c = (dat0 (Ve0 m) c).arrAt 3 cfg0.N := by
  unfold outs U1; rw [if_pos rfl]; exact Function.update_self ..
theorem outs3 (c : Dev nD) : outs m 3 main_v2 c = (dat1 (Ve1 m) c).arrAt 2 cfg1.N := by
  unfold outs U3; rw [if_neg (by decide)]; exact Function.update_self ..

theorem V1_eq (c : Dev nD) : Gen.V1 m (outs m) c = U1 m c := by
  show Function.update (Gen.V0 m c) main_v0 (outs m 1 main_v0 c) = _
  rw [outs1]; rfl
theorem V2_eq (c : Dev nD) : Gen.V2 m (outs m) c = U2 m c := by
  show StableHlo.after hostOps1 (Gen.V1 m (outs m) c) = _
  rw [V1_eq]; rfl
theorem V3_eq (c : Dev nD) : Gen.V3 m (outs m) c = U3 m c := by
  show Function.update (Gen.V2 m (outs m) c) main_v2 (outs m 3 main_v2 c) = _
  rw [outs3, V2_eq]; rfl

/-- The two pipelines' proof data, each at its region's entry contents. -/
def pdats : (p : Fin 2) → (c : Dev nD) → Dat τ (Elt F) Unit ℕ (Pipeline.UD sig nD τ) ℕ (cfgs p) c
  | ⟨0, _⟩ => fun c => dat0 (Ve0 m) c
  | ⟨1, _⟩ => fun c => dat1 (Ve1 m) c

/-- No core owes another anything: no level is assigned. -/
abbrev Lz : GSem nD τ sig → Finset Unit := fun _ => ∅
abbrev lvz : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-! ## Each region's arrays at its exit, against the contents after it -/

theorem hF0 (c : Dev nD) (w : Fin 4) : (dat0 (Ve0 m) c).arrAt w cfg0.N = Gen.V1 m (outs m) c (Pipeline.arrRef spec0 w) := by
  match w with
  | ⟨0, _⟩ =>
    refine ((dat0 (Ve0 m) c).arrAt_in 0 rfl _).trans ?_
    refine (A_eq0 (Ve0 m) c 0).trans ?_
    exact (Gen.V1_of m (outs m) c main_arg1 (by decide)).symm
  | ⟨1, _⟩ =>
    refine ((dat0 (Ve0 m) c).arrAt_in 1 rfl _).trans ?_
    refine (A_eq0 (Ve0 m) c 1).trans ?_
    exact (Gen.V1_of m (outs m) c main_arg2 (by decide)).symm
  | ⟨2, _⟩ =>
    refine ((dat0 (Ve0 m) c).arrAt_in 2 rfl _).trans ?_
    refine (A_eq0 (Ve0 m) c 2).trans ?_
    exact (Gen.V1_of m (outs m) c main_arg3 (by decide)).symm
  | ⟨3, _⟩ =>
    refine (outs1 m c).symm.trans ?_
    simp only [Gen.V1, Function.update_self]
  | ⟨n + 4, h⟩ => exact absurd h (by omega)

theorem hrest0 (c : Dev nD) (b : Ref sig .tc) (hb : b ∉ Finset.univ.image (Pipeline.arrRef spec0)) :
    Gen.V1 m (outs m) c b = Gen.V0 m c b :=
  Gen.V1_of m (outs m) c b (by
    intro h
    simp only [List.mem_cons, List.mem_nil_iff, or_false] at h
    exact hb (Finset.mem_image.mpr ⟨3, Finset.mem_univ _, h.symm⟩))

theorem hF1 (c : Dev nD) (w : Fin 3) : (dat1 (Ve1 m) c).arrAt w cfg1.N = Gen.V3 m (outs m) c (Pipeline.arrRef spec1 w) := by
  have hV2 := V2_eq m c
  match w with
  | ⟨0, _⟩ =>
    refine ((dat1 (Ve1 m) c).arrAt_in 0 rfl _).trans ?_
    refine (A_eq1 (Ve1 m) c 0).trans ?_
    refine Eq.trans ?_ (Gen.V3_of m (outs m) c main_v1 (by decide)).symm
    exact (congrFun hV2 _).symm
  | ⟨1, _⟩ =>
    refine ((dat1 (Ve1 m) c).arrAt_in 1 rfl _).trans ?_
    refine (A_eq1 (Ve1 m) c 1).trans ?_
    refine Eq.trans ?_ (Gen.V3_of m (outs m) c main_v0 (by decide)).symm
    exact (congrFun hV2 _).symm
  | ⟨2, _⟩ =>
    refine (outs3 m c).symm.trans ?_
    simp only [Gen.V3, Function.update_self]
  | ⟨n + 3, h⟩ => exact absurd h (by omega)

theorem hrest1 (c : Dev nD) (b : Ref sig .tc) (hb : b ∉ Finset.univ.image (Pipeline.arrRef spec1)) :
    Gen.V3 m (outs m) c b = Gen.V2 m (outs m) c b :=
  Gen.V3_of m (outs m) c b (by
    intro h
    simp only [List.mem_cons, List.mem_nil_iff, or_false] at h
    exact hb (Finset.mem_image.mpr ⟨2, Finset.mem_univ _, h.symm⟩))

end Cert.KernelIdeal.Fr

end
-- ==== Proof.KI.Segs.lean ====
/-
  @main as three segments — the projection kernel's region, the host conversion, the score kernel's region — and the
  run of @main they give: every weakly fair execution terminates, the result array ends at what the score pipeline's
  proof data say, every argument array ends as launched.

  Each region's record says: entered from "every unscoped buffer at the stated contents" it splits its windows' arrays
  out, hands the pipeline its invariant, takes it back, and leaves "every unscoped buffer at the contents after it".
-/
import proofs.«129995_j6030134083663_2_alg».proof.Proof.KI.Chain

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lz lvz 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (Ve0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lz lvz 1 fun _ _ => rfl
  pre c := iprop(StableHlo.held (c : Thread nD τ) (Pipeline.ucRefs τ sig) (Gen.V2 m (outs m) c) ∗ Rr c)
  post c := iprop(StableHlo.held (c : Thread nD τ) (Pipeline.ucRefs τ sig) (Gen.V3 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (Ve1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Ve1 m c) fun _ => rfl
    rw [Pipeline.unscopedBufs_held] at hsplit
    rw [V2_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (Ve1 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN. At the compiled mesh, from any memory with zero counters: every weakly fair execution of @main terminates,
    the result array ends at what the score pipeline leaves, and the four argument arrays end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v2) = outs m 3 main_v2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m (embL) () Variants.none Lz lvz (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

/-- THE FRAME: every weakly fair execution of @main terminates, faulting nowhere, the argument arrays unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Fr

end
-- ==== Proof.Spec.lean ====
/-
  The two programs' results as functions of the four argument arrays, on the extended reals, with the arrays read
  as functions of their coordinates.

  Write proj j h = (∑ t, y_b j t · W h t) + b h and score i j = ∑ h, y_a i h · proj j h. The reference's row
  value is (0 + ∑ j, 1 / (1 + exp (− score i j))) / 256, the same in all 256 columns. The kernel walks the 8192
  columns j of the score matrix in 8 blocks of 1024 and keeps one accumulator per row: the block's contribution is
  512 + ½ · ∑ (j in the block) tanh (½ · score i j), the accumulator is reset to 0 before the first block, and
  after the last block the row value is the accumulator times 1/256.
-/
import Idealize.ShloMosaic.PureOps.Ideal
import Idealize.ShloMosaic.Lib.ValueIdx

noncomputable section

namespace Cert.Spec

open Idealize.ShloMosaic

/-- The float words the two programs spell, read on the extended reals. -/
abbrev cZero : EReal := Ideal.ofBits .f32 0x00000000#32
abbrev cOne : EReal := Ideal.ofBits .f32 0x3F800000#32
abbrev cHalf : EReal := Ideal.ofBits .f32 0x3F000000#32
abbrev c512 : EReal := Ideal.ofBits .f32 0x44000000#32
abbrev c256 : EReal := Ideal.ofBits .f32 0x43800000#32
abbrev cInv256 : EReal := Ideal.ofBits .f32 0x3B800000#32

/-- A rank-2 array of extended reals read at its two coordinates, and a rank-1 array at its one. -/
def rd2 {n0 n1 : ℕ} (x : (⟨2, ![n0, n1]⟩ : Shape).Idx → EReal) (a : Fin n0) (c : Fin n1) : EReal := x (ValueIdx.ix2 a c)
def rd1 {n : ℕ} (x : (⟨1, ![n]⟩ : Shape).Idx → EReal) (a : Fin n) : EReal := x (ValueIdx.ix1 a)

/-- Row `j` of the projection, entry `h`: the row of `y_b` against row `h` of `W`, plus the bias. -/
def proj (yb : Fin 8192 → Fin 256 → EReal) (W : Fin 256 → Fin 256 → EReal) (b : Fin 256 → EReal)
    (j : Fin 8192) (h : Fin 256) : EReal :=
  (∑ t : Fin 256, yb j t * W h t) + b h

/-- The score of rows `i` of `y_a` and `j` of the projection. -/
def score (ya yb : Fin 8192 → Fin 256 → EReal) (W : Fin 256 → Fin 256 → EReal) (b : Fin 256 → EReal)
    (i j : Fin 8192) : EReal :=
  ∑ h : Fin 256, ya i h * proj yb W b j h

/-- The reference's value of row `i` from that row's scores: the logistic function spelt as a quotient, summed
    over the columns from 0, divided by 256. -/
def refRow (s : Fin 8192 → EReal) : EReal :=
  Ideal.div (cZero + ∑ j : Fin 8192, Ideal.div cOne (cOne + Ideal.exp (-(s j)))) c256

/-- A row's scores extended by zero past the last column. -/
def ext (s : Fin 8192 → EReal) (n : ℕ) : EReal := if h : n < 8192 then s ⟨n, h⟩ else 0

/-- The kernel's contribution of column block `k` (columns `1024 k … 1024 k + 1023`) to a row's accumulator. -/
def blockTerm (s : ℕ → EReal) (k : ℕ) : EReal :=
  c512 + cHalf * ∑ jj : Fin 1024, Ideal.tanh (cHalf * s (1024 * k + jj.val))

/-- A row's accumulator after column block `k`: reset to zero before block 0. -/
def acc (s : ℕ → EReal) : ℕ → EReal
  | 0 => cZero + blockTerm s 0
  | k + 1 => acc s k + blockTerm s (k + 1)

/-- The kernel's value of a row from that row's scores. -/
def kerRow (s : Fin 8192 → EReal) : EReal := acc (ext s) 7 * cInv256

end Cert.Spec

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.Payloads.lean ====
/-
  The four pure values the two kernels store, read at one index on the extended reals.

  The projection kernel stores, at (p, q), the row p of its first operand against the row q of its second, plus entry q
  of the bias vector. The score kernel stores the zero word at the first column block; at each block it stores the old
  accumulator plus 512 + ½ · ∑ tanh (½ · (row p of one operand against row jj of the block)); and at the last block it
  stores the accumulator times the word 1/256 in every column. Format changes are the identity and casts to the same
  shape change nothing, so each reading is a chain of pointwise steps around one product and one lane sum.
-/
import proofs.«129995_j6030134083663_2_alg».proof.Proof.Gen.KernelIdeal.Skeleton
import proofs.«129995_j6030134083663_2_alg».proof.Proof.Spec
import proofs.«129995_j6030134083663_2_alg».proof.Proof.LibDotLastAxes
import proofs.«129995_j6030134083663_2_alg».proof.Proof.LibLayout
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The reduced index p of a lane sum with lane k put back is (p, k). -/
theorem lift_ix1_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The projection kernel's stored value at (p, q): row p against row q, plus the bias entry q. -/
theorem k0_pay1_apply (v0 : Vec Ideal S2048x256 .f32) (v2 : Vec Ideal S256x256 .f32) (v5 : Vec Ideal S256 .f32)
    (p : Fin 2048) (q : Fin 256) :
    Gen.k0_pay1 (F := Ideal) v0 v2 v5 (ix2 p q) = (∑ k : Fin 256, v0 (ix2 p k) * v2 (ix2 q k)) + v5 (ix1 q) := by
  unfold Gen.k0_pay1
  refine (truncf_apply (ψ := .bf16) _ bitsLt_bf16_f32 _).trans ?_
  refine (addf_apply _ _ _).trans ?_
  refine congrArg₂ (· + ·) ?_ ?_
  · exact DotLastAxes.matmul_zero_apply dot_S2048x256_S256x256_S2048x256_1_1_0_0_n_n_wf none _ _ p q
  · refine (broadcastTo_1b_ab_apply _ broadcasts_S1x256_S2048x256 p q).trans ?_
    exact shapeCast_a_1a_apply v5 shapeCasts_S256_S1x256 0 q

/-- At the first column block the score kernel stores the zero word. -/
theorem k1_pay1_apply (p : Fin 2048) : Gen.k1_pay1 (F := Ideal) (ix2 p (0 : Fin 1)) = Cert.Spec.cZero := by
  unfold Gen.k1_pay1
  rw [shapeCast_self]
  rfl

/-- The lane sum of the score kernel at row p: the sum over the block's 1024 columns. -/
theorem laneSum_apply (v14 : FVec Ideal S2048x1024 .f32) (p : Fin 2048) :
    multiReduction .add [1] S2048 v14 0x00000000#32 reduces_S2048x1024_S2048 (.inl rfl) rfl (ix1 p)
      = ∑ jj : Fin 1024, v14 (ix2 p jj) := by
  refine (Ideal.multiReduction_add_single v14 _ reduces_S2048x1024_S2048 (.inl rfl) rfl (ix1 p)).trans ?_
  refine Finset.sum_congr rfl fun k _ => ?_
  rw [lift_ix1_axis1]
  rfl

/-- At each column block the score kernel stores the old accumulator plus the block's contribution. -/
theorem k1_pay2_apply (v6 : Vec Ideal S1024x256 .bf16) (v8 : Vec Ideal S2048x256 .bf16) (v11 : Vec Ideal S2048x1 .f32)
    (p : Fin 2048) :
    Gen.k1_pay2 (F := Ideal) v6 v8 v11 (ix2 p (0 : Fin 1))
      = v11 (ix2 p (0 : Fin 1)) + (Cert.Spec.c512 + Cert.Spec.cHalf * ∑ jj : Fin 1024,
          Ideal.tanh (Cert.Spec.cHalf * ∑ c : Fin 256, v8 (ix2 p c) * v6 (ix2 jj c))) := by
  unfold Gen.k1_pay2
  rw [shapeCast_self, shapeCast_self, shapeCast_self]
  refine (addf_apply _ _ _).trans ?_
  refine congrArg (v11 (ix2 p (0 : Fin 1)) + ·) ?_
  refine (addf_apply _ _ _).trans ?_
  refine congrArg₂ (· + ·) rfl ?_
  refine (mulf_apply _ _ _).trans ?_
  refine congrArg₂ (· * ·) rfl ?_
  refine (Cert.LibLayout.shapeCast_a_a1_apply _ shapeCasts_S2048_S2048x1 p 0).trans ?_
  refine (laneSum_apply _ p).trans ?_
  refine Finset.sum_congr rfl fun jj _ => ?_
  show Ideal.tanh (_ * _) = _
  refine congrArg Ideal.tanh ?_
  refine congrArg₂ (· * ·) rfl ?_
  exact DotLastAxes.matmul_zero_apply dot_S2048x256_S1024x256_S2048x1024_1_1_0_0_n_n_wf none _ _ p jj

/-- At the last column block the score kernel stores the accumulator times the word 1/256 in every column. -/
theorem k1_pay3_apply (v28 : Vec Ideal S2048x1 .f32) (p : Fin 2048) (q : Fin 256) :
    Gen.k1_pay3 (F := Ideal) v28 (ix2 p q) = v28 (ix2 p (0 : Fin 1)) * Cert.Spec.cInv256 := by
  unfold Gen.k1_pay3
  rw [shapeCast_self]
  refine (Cert.LibLayout.broadcastTo_a1_ab_apply _ broadcasts_S2048x1_S2048x256 p q).trans ?_
  rfl

end Cert.KernelIdeal.Pay

end
-- ==== Proof.KI.Value0.lean ====
/-
  The projection region's output array after the run, from blocks to the array.

  The grid has four points. Point t reads rows 2048 t … 2048 t + 2047 of y_b, all of W and all of b, and writes back the
  2048 by 256 block of the output at the same rows; its entry (p, q) is row p of the y_b block against row q of W plus
  b q. Row r of the output array therefore lies in the block of point r / 2048 and reads row r of y_b: the four blocks
  fill the array, and the array ends holding, at (j, h), (∑ t, y_b j t · W h t) + b h.
-/
import proofs.«129995_j6030134083663_2_alg».proof.Proof.KI.Region0
import proofs.«129995_j6030134083663_2_alg».proof.Proof.Payloads
import proofs.«129995_j6030134083663_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The projection as one array over the three argument arrays: entry (j, h) is row j of y_b against row h of W plus b h. -/
def projArr (yb : S8192x256.Idx → EReal) (W : S256x256.Idx → EReal) (b : S256.Idx → EReal) : S8192x256.Idx → EReal :=
  fun i => Cert.Spec.proj (Cert.Spec.rd2 yb) (Cert.Spec.rd2 W) (Cert.Spec.rd1 b) (i 0) (i 1)

/-- The block index maps, decided over the four points: the row blocks of y_b and of the output move together, block t
    at point t; W and b are one block each; no map moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One entry of the stored block is the projection's entry, when the y_b block holds the rows of y_b that the entry's
    row reads and the other two blocks are W and b. -/
theorem pay_eq_projArr (x0 : Vec Ideal S2048x256 .f32) (x1 : Vec Ideal S256x256 .f32) (x2 : Vec Ideal S256 .f32)
    (yb : S8192x256.Idx → EReal) (W : S256x256.Idx → EReal) (b : S256.Idx → EReal)
    (y : S2048x256.Idx) (i : S8192x256.Idx)
    (h0 : ∀ k : Fin 256, x0 (ix2 (y 0 : Fin 2048) k) = yb (ix2 (i 0 : Fin 8192) k)) (h1 : x1 = W) (h2 : x2 = b)
    (hq : (i 1).val = (y 1).val) :
    k0_pay1 (F := Ideal) x0 x1 x2 y = projArr yb W b i := by
  obtain ⟨p, q, rfl⟩ : ∃ (p : Fin 2048) (q : Fin 256), y = ix2 p q := ⟨y 0, y 1, eq_ix2 y⟩
  obtain ⟨p', q', rfl⟩ : ∃ (p' : Fin 8192) (q' : Fin 256), i = ix2 p' q' := ⟨i 0, i 1, eq_ix2 i⟩
  obtain rfl : q' = q := Fin.ext hq
  subst h1 h2
  rw [Pay.k0_pay1_apply]
  exact congrArg₂ (· + ·) (Finset.sum_congr rfl fun k _ => congrArg₂ (· * ·) (h0 k) rfl) rfl

/-- What point t writes back is block t of the projection of the argument arrays as the region finds them. -/
theorem flushed_eq (c : Dev nD) (t : Fin cfg0.N) :
    (dat0 (F := Ideal) V c).flushed 3 t
      = ((cfg0.win 3).blk t).view.read (Elt Ideal) (projArr (V c main_arg1) (V c main_arg2) (V c main_arg3)) := by
  show (cfg0.win 3).cut (grid0.coords t) ((dat0 V c).after 3 t) = _
  rw [after0_3]
  unfold out0_3
  rw [View.canon_unit_zero hz]
  simp only [View.ld_unit_zero (S := S2048x256) hz, View.ld_unit_zero (S := S256x256) hz, View.ld_unit_zero (S := S256) hz1]
  obtain ⟨e0, e1, e2, e3, e4, e5, e6⟩ := idx_facts t
  funext j
  show k0_pay1 (iblk0 V c 0 t) (iblk0 V c 1 t) (iblk0 V c 2 t) j
    = projArr (V c main_arg1) (V c main_arg2) (V c main_arg3) (((cfg0.win 3).blk t).view.emb j)
  refine pay_eq_projArr _ _ _ _ _ _ j _ (fun k => ?_) ?_ ?_ ?_
  · unfold iblk0
    rw [View.read_apply]
    show V c main_arg1 (((cfg0.win 0).blk t).view.emb (ix2 (j 0 : Fin 2048) k)) = V c main_arg1 _
    refine congrArg (V c main_arg1) ?_
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 256 + 1 * k.val = k.val; omega
  · funext y
    unfold iblk0
    rw [View.read_apply]
    show V c main_arg2 (((cfg0.win 1).blk t).view.emb y) = V c main_arg2 y
    refine congrArg (V c main_arg2) ?_
    funext a; apply Fin.ext
    match a with
    | ⟨0, _⟩ => show win0_1.index t (0 : Fin 2) * 256 + 1 * (y 0).val = (y 0).val; omega
    | ⟨1, _⟩ => show win0_1.index t (1 : Fin 2) * 256 + 1 * (y 1).val = (y 1).val; omega
  · funext y
    unfold iblk0
    rw [View.read_apply]
    show V c main_arg3 (((cfg0.win 2).blk t).view.emb y) = V c main_arg3 y
    refine congrArg (V c main_arg3) ?_
    funext a; apply Fin.ext
    match a with
    | ⟨0, _⟩ => show win0_2.index t (0 : Fin 1) * 256 + 1 * (y 0).val = (y 0).val; omega
  · show win0_3.index t (1 : Fin 2) * 256 + 1 * (j 1).val = (j 1).val; omega

/-- An index of the output array is in point t's block iff each coordinate is in the block's range on its axis. -/
theorem mem_blk (t : Fin cfg0.N) (i : S8192x256.Idx) :
    i ∈ ((cfg0.win 3).blk t).view.set
      ↔ ∀ a : Fin 2, win0_3.index t a * S2048x256.size a ≤ (i a).val ∧ (i a).val < win0_3.index t a * S2048x256.size a + S2048x256.size a := by
  show i ∈ ((View.whole main_v0).slice (win0_3.rect t)).set ↔ _
  rw [View.set_slice_whole, Rect.mem_set_unit]
  exact Iff.rfl

/-- The four row blocks fill the output array: row r is in the block of point r / 2048. -/
theorem cover (i : S8192x256.Idx) : ∃ t : Fin cfg0.N, (cfg0.win 3).flush t = true ∧ i ∈ ((cfg0.win 3).blk t).view.set := by
  have hN : grid0.N = 4 := Gen.N_0
  have hi0 : (i 0).val < 8192 := (i 0).isLt
  have hi1 : (i 1).val < 256 := (i 1).isLt
  refine ⟨(⟨(i 0).val / 2048, by show (i 0).val / 2048 < grid0.N; omega⟩ : Fin cfg0.N), Gen.flush0_3 _, ?_⟩
  rw [mem_blk]
  obtain ⟨e0, e1, e2, e3, e4, e5, e6⟩ := idx_facts (⟨(i 0).val / 2048, by show (i 0).val / 2048 < grid0.N; omega⟩ : Fin cfg0.N)
  have e5' : win0_3.index (⟨(i 0).val / 2048, by show (i 0).val / 2048 < grid0.N; omega⟩ : Fin cfg0.N) (0 : Fin 2) = (i 0).val / 2048 := e5
  intro a
  match a with
  | ⟨0, _⟩ =>
    show win0_3.index _ (0 : Fin 2) * 2048 ≤ (i 0).val ∧ (i 0).val < win0_3.index _ (0 : Fin 2) * 2048 + 2048
    rw [e5']; omega
  | ⟨1, _⟩ =>
    show win0_3.index _ (1 : Fin 2) * 256 ≤ (i 1).val ∧ (i 1).val < win0_3.index _ (1 : Fin 2) * 256 + 256
    rw [e6]; omega

/-- After the run the output array holds the projection of the argument arrays. -/
theorem final (c : Dev nD) :
    (dat0 (F := Ideal) V c).arrAt 3 cfg0.N = projArr (V c main_arg1) (V c main_arg2) (V c main_arg3) :=
  (dat0 V c).arrAt_eq_of_cover 3 _ (fun t _ => flushed_eq V c t) cover

/-- The output array of the projection region, entry by entry. -/
theorem arrAt0_apply (c : Dev nD) (p : Fin 8192) (q : Fin 256) :
    (dat0 (F := Ideal) V c).arrAt 3 cfg0.N (ix2 p q)
      = Cert.Spec.proj (Cert.Spec.rd2 (V c main_arg1)) (Cert.Spec.rd2 (V c main_arg2)) (Cert.Spec.rd1 (V c main_arg3)) p q := by
  rw [final]
  rfl

end Cert.KernelIdeal.Val

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.ScoreLaw.lean ====
/-
  The kernel's row value is the reference's row value, as a law on the extended reals.

  The reference sums the logistic function 1 / (1 + e^(−x)) of a row's 8192 scores and divides by 256. The kernel
  walks the columns in 8 blocks of 1024, each block contributing 512 + ½ · ∑ tanh (½ · x), and multiplies the total
  by 1/256. The two agree because 1 / (1 + e^(−x)) = ½ + ½ · tanh (½ · x) for every extended real x (at +∞ both
  sides are 1, at −∞ both are 0), both sides of which are real numbers: every term is moved into ℝ, where the sum
  of the 8 block contributions, 8 · 512 + ½ · ∑ tanh, is the sum over all 8192 columns of ½ + ½ · tanh.
-/
import proofs.«129995_j6030134083663_2_alg».proof.Proof.Spec
import proofs.«129995_j6030134083663_2_alg».proof.Proof.LibSumBlocks
import Mathlib.Tactic

noncomputable section

namespace Cert.ScoreLaw

open Idealize.ShloMosaic Cert.Spec

/-! ### The constants -/

theorem cZero_eq : cZero = 0 := by
  simp [Ideal.ofBits, Ideal.ieee]

theorem cOne_eq : cOne = 1 := by
  simp [Ideal.ofBits, Ideal.ieee, -EReal.coe_mul]; norm_num

theorem cHalf_eq : cHalf = ((1 / 2 : ℝ) : EReal) := by
  simp [Ideal.ofBits, Ideal.ieee, -EReal.coe_mul]; norm_num

theorem c512_eq : c512 = ((512 : ℝ) : EReal) := by
  simp [Ideal.ofBits, Ideal.ieee, -EReal.coe_mul]; norm_num

theorem c256_eq : c256 = ((256 : ℝ) : EReal) := by
  simp [Ideal.ofBits, Ideal.ieee, -EReal.coe_mul]; norm_num

theorem cInv256_eq : cInv256 = ((1 / 256 : ℝ) : EReal) := by
  simp [Ideal.ofBits, Ideal.ieee, -EReal.coe_mul]; norm_num

/-! ### The logistic function through the hyperbolic tangent -/

/-- On the reals, 1 / (1 + e^(−r)) = ½ + ½ · tanh (r / 2): with a = e^(r/2) both sides are a² / (a² + 1). -/
theorem real_logistic_eq (r : ℝ) : (1 + Real.exp (-r))⁻¹ = 1 / 2 + 1 / 2 * Real.tanh (1 / 2 * r) := by
  have ha : 0 < Real.exp (1 / 2 * r) := Real.exp_pos _
  have h1 : Real.exp (-r) = (Real.exp (1 / 2 * r))⁻¹ ^ 2 := by
    rw [← Real.exp_neg, ← Real.exp_nat_mul]; congr 1; push_cast; ring
  rw [Real.tanh_eq_sinh_div_cosh, Real.sinh_eq, Real.cosh_eq, h1, Real.exp_neg]
  field_simp
  ring

/-- For every extended real x the hyperbolic tangent of ½ · x is a real number t, and the logistic quotient
    at x is the real number ½ + ½ · t. -/
theorem logistic_eq (x : EReal) :
    ∃ t : ℝ, Ideal.tanh (cHalf * x) = (t : EReal)
      ∧ Ideal.div cOne (cOne + Ideal.exp (-x)) = ((1 / 2 + 1 / 2 * t : ℝ) : EReal) := by
  have hl : Ideal.div cOne (cOne + Ideal.exp (-x)) = Ideal.logistic x := by rw [cOne_eq]; rfl
  rw [hl, cHalf_eq]
  induction x using EReal.rec with
  | bot =>
    refine ⟨-1, ?_, ?_⟩
    · rw [EReal.coe_mul_bot_of_pos (by norm_num), Ideal.tanh_bot]; simp
    · rw [Ideal.logistic_bot]; norm_num
  | coe r =>
    refine ⟨Real.tanh (1 / 2 * r), ?_, ?_⟩
    · rw [← EReal.coe_mul, Ideal.tanh_coe]
    · rw [Ideal.logistic_coe, real_logistic_eq]
  | top =>
    refine ⟨1, ?_, ?_⟩
    · rw [EReal.coe_mul_top_of_pos (by norm_num), Ideal.tanh_top]; simp
    · rw [Ideal.logistic_top]; norm_num

/-! ### Sums -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: the 8 block contributions 512 + ½ · ∑ (block) add up to the sum over all 8 · 1024 columns
    of ½ + ½ · g. -/
theorem block_sum (g : ℕ → ℝ) :
    ∑ a ∈ Finset.range 8, (512 + 1 / 2 * ∑ b : Fin 1024, g (1024 * a + b.val))
      = ∑ j : Fin 8192, (1 / 2 + 1 / 2 * g j.val) := by
  have h1 : ∑ j : Fin 8192, (1 / 2 + 1 / 2 * g j.val) = ∑ k : Fin (8 * 1024), (1 / 2 + 1 / 2 * g k.val) := by
    rw [Fin.sum_univ_eq_sum_range (fun n => 1 / 2 + 1 / 2 * g n) 8192]
  rw [h1, Cert.SumBlocks.sum_blocks 8 1024, ← Fin.sum_univ_eq_sum_range]
  refine Finset.sum_congr rfl fun a _ => ?_
  simp only [Cert.SumBlocks.block_pos]
  rw [Finset.sum_add_distrib, ← Finset.mul_sum, Finset.sum_const, Finset.card_univ, Fintype.card_fin]
  congr 1
  · norm_num
  · congr 1
    refine Finset.sum_congr rfl fun b _ => ?_
    rw [add_comm]

/-! ### The two row values -/

/-- A row's accumulator after block k, when the tangents are the real numbers u. -/
theorem acc_eq (s : ℕ → EReal) (u : ℕ → ℝ) (hu : ∀ n, Ideal.tanh (cHalf * s n) = (u n : EReal)) (k : ℕ) :
    acc s k = ((∑ a ∈ Finset.range (k + 1), (512 + 1 / 2 * ∑ b : Fin 1024, u (1024 * a + b.val)) : ℝ) : EReal) := by
  have hb : ∀ a, blockTerm s a = ((512 + 1 / 2 * ∑ b : Fin 1024, u (1024 * a + b.val) : ℝ) : EReal) := by
    intro a
    rw [blockTerm, c512_eq, cHalf_eq, EReal.coe_add, EReal.coe_mul, coe_sum]
    simp only [← cHalf_eq, hu]
  induction k with
  | zero => rw [acc, cZero_eq, zero_add, hb, Finset.sum_range_one]
  | succ k ih => rw [acc, ih, hb, ← EReal.coe_add, ← Finset.sum_range_succ]

theorem kerRow_eq_refRow (s : Fin 8192 → EReal) : Cert.Spec.kerRow s = Cert.Spec.refRow s := by
  choose u hu1 hu2 using fun n : ℕ => logistic_eq (ext s n)
  have hext : ∀ j : Fin 8192, ext s j.val = s j := fun j => by simp [ext, j.isLt]
  have hlog : ∀ j : Fin 8192,
      Ideal.div cOne (cOne + Ideal.exp (-(s j))) = ((1 / 2 + 1 / 2 * u j.val : ℝ) : EReal) := fun j => by
    rw [← hext j]; exact hu2 j.val
  rw [kerRow, refRow, acc_eq (ext s) u hu1 7, block_sum u, cInv256_eq, cZero_eq, zero_add, c256_eq,
    Ideal.div_coe (by norm_num), coe_sum]
  simp only [hlog]

end Cert.ScoreLaw

end
-- ==== Proof.KI.Glue.lean ====
/-
  The contents the score region is entered from, and the kernel's result as the reference's function.

  Between the two regions the host converts y_a to bf16, which on the extended reals changes nothing: the score region
  finds, in its y_a operand, the launch contents of y_a, and in its projection operand what the projection region left,
  entry (j, h) being (∑ t, y_b j t · W h t) + b h over the launch contents of y_b, W and b. The score region's scores
  of row r are therefore the reference's scores of row r, and the kernel's row value of them is the reference's row value.
-/
import proofs.«129995_j6030134083663_2_alg».proof.Proof.KI.Chain
import proofs.«129995_j6030134083663_2_alg».proof.Proof.KI.Value0
import proofs.«129995_j6030134083663_2_alg».proof.Proof.ScoreLaw
import proofs.«129995_j6030134083663_2_alg».proof.Proof.Spec
import Idealize.ShloMosaic.Lib.StableHlo.Run

noncomputable section

open scoped BigOperators

namespace Cert.KernelIdeal.Val

open Cert.KernelIdeal Cert.KernelIdeal.Gen Cert.KernelIdeal.Fr Idealize.ShloMosaic Idealize.ShloMosaic.TcCoe
  Idealize.ShloMosaic.ValueIdx Idealize.ShloMosaic.StableHlo

variable (m : (ℓ : Loc nD τ sig) → Buf (Elt Ideal) ℓ)

/-- The converted y_a the score region reads is the launch y_a: the conversion is the identity on the extended reals,
    and the projection region, which wrote only its own output, left y_a as launched. -/
theorem entry1_ya (c : Dev nD) (r : Fin 8192) (h : Fin 256) :
    Cert.Spec.rd2 (Ve1 m c main_v1) r h = Cert.Spec.rd2 (m ((c.tc : Thread nD τ).loc main_arg0)) r h := by
  have e : (U2 m c main_v1 : S8192x256.Idx → EReal) = (U1 m c main_arg0 : S8192x256.Idx → EReal) := by
    dsimp only [U2, hostOps1]; after_results; rfl
  have e2 : (U1 m c main_arg0 : S8192x256.Idx → EReal) = m ((c.tc : Thread nD τ).loc main_arg0) :=
    (congrFun (V1_eq m c) _).symm.trans ((Gen.V1_of m (outs m) c main_arg0 (by decide)).trans rfl)
  exact congrFun (e.trans e2) (ix2 r h)

/-- The projection operand the score region reads is what the projection region left: the host conversion does not
    write it. -/
theorem entry1_proj (c : Dev nD) (j : Fin 8192) (h : Fin 256) :
    Cert.Spec.rd2 (Ve1 m c main_v0) j h
      = Cert.Spec.proj (Cert.Spec.rd2 (m ((c.tc : Thread nD τ).loc main_arg1)))
          (Cert.Spec.rd2 (m ((c.tc : Thread nD τ).loc main_arg2)))
          (Cert.Spec.rd1 (m ((c.tc : Thread nD τ).loc main_arg3))) j h := by
  have e : (U2 m c main_v0 : S8192x256.Idx → EReal) = (dat0 (F := Ideal) (Ve0 m) c).arrAt 3 cfg0.N := by
    refine (congrFun (V2_eq m c) _).symm.trans ?_
    refine (Gen.V2_of m (outs m) c main_v0 (by decide)).trans ?_
    refine Eq.trans ?_ (outs1 m c)
    simp only [Gen.V1, Function.update_self]
  exact (congrFun e (ix2 j h)).trans (arrAt0_apply (Ve0 m) c j h)

/-- The kernel's result array is the reference's function of the launch contents of the four argument arrays, once the
    score region's output array is known to hold, in row r, the kernel's row value of the scores of row r. -/
theorem result_eq (c : Dev nD)
    (harr : ∀ (r : Fin 8192) (q : Fin 256), (dat1 (F := Ideal) (Ve1 m) c).arrAt 2 cfg1.N (ix2 r q)
        = Cert.Spec.kerRow (fun col => ∑ h : Fin 256, Cert.Spec.rd2 (Ve1 m c main_v1) r h * Cert.Spec.rd2 (Ve1 m c main_v0) col h)) :
    outs m 3 main_v2 c = (fun i : S8192x256.Idx => Cert.Spec.refRow (fun j => Cert.Spec.score
        (Cert.Spec.rd2 (m ((c.tc : Thread nD τ).loc main_arg0))) (Cert.Spec.rd2 (m ((c.tc : Thread nD τ).loc main_arg1)))
        (Cert.Spec.rd2 (m ((c.tc : Thread nD τ).loc main_arg2))) (Cert.Spec.rd1 (m ((c.tc : Thread nD τ).loc main_arg3)))
        (i 0) j)) := by
  refine (outs3 m c).trans (funext fun i => ?_)
  obtain ⟨r, q, rfl⟩ : ∃ (r : Fin 8192) (q : Fin 256), i = ix2 r q := ⟨i 0, i 1, eq_ix2 i⟩
  refine (harr r q).trans ((Cert.ScoreLaw.kerRow_eq_refRow _).trans ?_)
  refine congrArg Cert.Spec.refRow (funext fun j => ?_)
  exact Finset.sum_congr rfl fun h _ => congrArg₂ (· * ·) (entry1_ya m c r h) (entry1_proj m c j h)

end Cert.KernelIdeal.Val

end
-- ==== Proof.KI.Value1.lean ====
/-
  The score kernel's region, read as values on the extended reals: what the scratch and the output block hold after
  every grid point.

  The grid is 4 by 8 and point t = 8 i + j works on rows 2048 i … 2048 i + 2047 of the y_a copy and on rows
  1024 j … 1024 j + 1023 of the projection (columns of the score matrix). Write score r col for the product of row r of
  the y_a copy with row col of the projection. At every point the body stores, at row p of the scratch, what the
  scratch held plus 512 + ½ · ∑ (col in the block) tanh (½ · score (2048 i + p) col); at j = 0 it first resets the
  scratch to the zero word, and at j = 7 it stores the scratch times the word 1/256 into every column of the output
  block. So after point 8 i + j the scratch holds at row p the accumulator of global row 2048 i + p after column block j
  (by induction on the point: the three cases of a point, each case's stores read back as the stored values), and
  after point 8 i + 7 the output block holds at (p, q) that row's value.
-/
import proofs.«129995_j6030134083663_2_alg».proof.Proof.KI.Region1
import proofs.«129995_j6030134083663_2_alg».proof.Proof.Payloads
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Fr Idealize.ShloMosaic Idealize.ShloMosaic.TcCoe
  Idealize.ShloMosaic.ValueIdx Idealize.ShloMosaic.Tactic

variable {F : FTy → Type} [FloatOps F]

/-- The zero offsets of an access to a whole rank-2 buffer. -/
theorem hz2 : (![0, 0] : Fin 2 → Nat) = fun _ => 0 := funext fun a => by fin_cases a <;> rfl

/-! ## What each case's stores leave, as the stored values of the blocks -/

/-- The rows of the projection a column block reads: the 1024 rows from the block's offset. -/
abbrev rowsOf (i : grid1.Coords) (x1 : Vec F S8192x256 .bf16) : Vec F S1024x256 .bf16 :=
  View.ld x1 (Rect.unit (s := S8192x256) (k1_off1 i) S1024x256.size (k1_off1_inb i))

/-- At a block row's first column block the scratch ends at the block's contribution added to the reset value. -/
theorem scratch_A (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S8192x256 .bf16) :
    sout1_A_0 c i arg2 harg2 arg3 harg3 arg4 harg4 arg5 harg5 hc0 hc1 x0 x1 = k1_pay2 (rowsOf i x1) x0 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S2048x1) hz2, View.readCov_unit_zero (S := S2048x1) _ hz2]
  simp only [View.readAt_eq_ld, harg2.read_unread, harg3.read_unread, View.ld_unit_zero (S := S2048x256) hz2]
  rfl

/-- At a middle column block the scratch ends at the block's contribution added to what it held. -/
theorem scratch_B (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S8192x256 .bf16) (xs0 : Vec F S2048x1 .f32) :
    sout1_B_0 c i arg2 harg2 arg3 harg3 arg4 harg4 arg5 harg5 hc0 hc1 x0 x1 xs0 = k1_pay2 (rowsOf i x1) x0 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz2]
  simp only [View.readAt_eq_ld, harg2.read_unread, harg3.read_unread, harg5.read_unread, View.ld_unit_zero (S := S2048x256) hz2, View.ld_unit_zero (S := S2048x1) hz2]

/-- At the last column block the scratch ends likewise, -/
theorem scratch_C (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) :
    sout1_C_0 c i arg2 harg2 arg3 harg3 arg4 harg4 arg5 harg5 hc0 hc1 x0 x1 xs0 = k1_pay2 (rowsOf i x1) x0 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S2048x1) hz2]
  simp only [View.readAt_eq_ld, harg2.read_unread, harg3.read_unread, harg5.read_unread, View.ld_unit_zero (S := S2048x256) hz2, View.ld_unit_zero (S := S2048x1) hz2]
  rfl

/-- and the output block is the stored value of that final scratch. -/
theorem out_C (c : Dev nD) (i : grid1.Coords) (arg2 : Memref sig .tc .vmem S2048x256 .bf16) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S8192x256 .bf16) (xs0 : Vec F S2048x1 .f32) :
    out1_C_2 c i arg2 harg2 arg3 harg3 arg4 harg4 arg5 harg5 hc0 hc1 x0 x1 xs0 = k1_pay3 (k1_pay2 (rowsOf i x1) x0 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S2048x256) hz2, View.readCov_unit_zero (S := S2048x1) _ hz2]
  simp only [View.readAt_eq_ld, harg2.read_unread, harg3.read_unread, harg5.read_unread, View.ld_unit_zero (S := S2048x256) hz2, View.ld_unit_zero (S := S2048x1) hz2]
  rfl

/-! ## One column block's step, on the extended reals -/

/-- A load of 1024 rows from row offset 1024 j reads, at (jj, c), the array's entry (1024 j + jj, c). -/
theorem rows_idx (off : Fin 2 → Nat) (inb : ∀ a, off a + S1024x256.size a ≤ S8192x256.size a) (j : ℕ) (hj : j < 8)
    (hoff : off = ![1024 * j, 0]) (jj : Fin 1024) (c : Fin 256) :
    (Rect.unit (s := S8192x256) off S1024x256.size inb).idx (ix2 jj c) = ix2 (⟨1024 * j + jj.val, by omega⟩ : Fin 8192) c := by
  subst hoff
  funext a; apply Fin.ext
  match a with
  | ⟨0, _⟩ => show 1024 * j + 1 * jj.val = 1024 * j + jj.val; omega
  | ⟨1, _⟩ => show 0 + 1 * c.val = c.val; omega

/-- The value stored at column block j of block row i, at row p: what the scratch held plus the block's term of the
    row's scores — the rows of y_a read through the block (x0), the projection read whole (x1). -/
theorem step_value (ya yb : Fin 8192 → Fin 256 → EReal) (x0 : Vec Ideal S2048x256 .bf16) (x1 : Vec Ideal S8192x256 .bf16)
    (v11 : Vec Ideal S2048x1 .f32) (i j : ℕ) (hi : i < 4) (hj : j < 8) (off : Fin 2 → Nat)
    (inb : ∀ a, off a + S1024x256.size a ≤ S8192x256.size a) (hoff : off = ![1024 * j, 0])
    (h0 : ∀ (p : Fin 2048) (h : Fin 256), x0 (ix2 p h) = ya ⟨2048 * i + p.val, by omega⟩ h)
    (h1 : ∀ (r : Fin 8192) (h : Fin 256), x1 (ix2 r h) = yb r h) (p : Fin 2048) :
    k1_pay2 (F := Ideal) (View.ld x1 (Rect.unit (s := S8192x256) off S1024x256.size inb)) x0 v11 (ix2 p (0 : Fin 1))
      = v11 (ix2 p (0 : Fin 1)) + Cert.Spec.blockTerm (Cert.Spec.ext (fun col => ∑ h : Fin 256, ya ⟨2048 * i + p.val, by omega⟩ h * yb col h)) j := by
  refine (Cert.KernelIdeal.Pay.k1_pay2_apply _ x0 v11 p).trans ?_
  refine congrArg (v11 (ix2 p (0 : Fin 1)) + ·) ?_
  unfold Cert.Spec.blockTerm
  refine congrArg (Cert.Spec.c512 + Cert.Spec.cHalf * ·) (Finset.sum_congr rfl fun jj _ => ?_)
  refine congrArg (fun z => Ideal.tanh (Cert.Spec.cHalf * z)) ?_
  unfold Cert.Spec.ext
  rw [dif_pos (show 1024 * j + jj.val < 8192 by omega)]
  refine Finset.sum_congr rfl fun c _ => ?_
  rw [h0]
  show _ * x1 ((Rect.unit (s := S8192x256) off S1024x256.size inb).idx (ix2 jj c)) = _
  rw [rows_idx off inb j hj hoff jj c, h1]

/-! ## The blocks the input windows hand the body -/

variable (V : (c : Dev nD) → (b : Ref sig .tc) → Buf (Elt Ideal) ((c : Thread nD τ).loc b))

/-- Point t = 8 i + j has coordinates (i, j); window 0's block index there is (i, 0), window 1's is (0, 0). -/
theorem point_facts : ∀ t : Fin cfg1.N, ((grid1.coords t) 0).val = t.val / 8 ∧ ((grid1.coords t) 1).val = t.val % 8
    ∧ win1_0.index t 0 = t.val / 8 ∧ win1_0.index t 1 = 0 ∧ win1_1.index t 0 = 0 ∧ win1_1.index t 1 = 0 :=
  (by decide +kernel : ∀ t : Fin grid1.N, ((grid1.coords t) 0).val = t.val / 8 ∧ ((grid1.coords t) 1).val = t.val % 8
    ∧ win1_0.index t 0 = t.val / 8 ∧ win1_0.index t 1 = 0 ∧ win1_1.index t 0 = 0 ∧ win1_1.index t 1 = 0)

/-- Window 0's block at a point of block row i holds rows 2048 i … 2048 i + 2047 of the y_a copy. -/
theorem block0_apply (c : Dev nD) (t : Fin cfg1.N) (i : ℕ) (hi : t.val / 8 = i) (x0 : Vec Ideal S2048x256 .bf16)
    (hx : x0 = iblk1 V c 0 t) (p : Fin 2048) (h : Fin 256) (hb : 2048 * i + p.val < 8192) :
    x0 (ix2 p h) = Cert.Spec.rd2 (V c main_v1) ⟨2048 * i + p.val, hb⟩ h := by
  subst hx
  unfold iblk1 Cert.Spec.rd2
  rw [View.read_apply]
  show V c main_v1 (((cfg1.win 0).blk t).view.emb (ix2 p h)) = V c main_v1 _
  refine congrArg (V c main_v1) (funext fun a => Fin.ext ?_)
  match a with
  | ⟨0, _⟩ => show win1_0.index t 0 * 2048 + 1 * p.val = 2048 * i + p.val; rw [(point_facts t).2.2.1, hi]; omega
  | ⟨1, _⟩ => show win1_0.index t 1 * 256 + 1 * h.val = h.val; rw [(point_facts t).2.2.2.1]; omega

/-- Window 1's block is the whole projection at every point. -/
theorem block1_apply (c : Dev nD) (t : Fin cfg1.N) (x1 : Vec Ideal S8192x256 .bf16) (hx : x1 = iblk1 V c 1 t)
    (r : Fin 8192) (h : Fin 256) : x1 (ix2 r h) = Cert.Spec.rd2 (V c main_v0) r h := by
  subst hx
  unfold iblk1 Cert.Spec.rd2
  rw [View.read_apply]
  show V c main_v0 (((cfg1.win 1).blk t).view.emb (ix2 r h)) = V c main_v0 _
  refine congrArg (V c main_v0) (funext fun a => Fin.ext ?_)
  match a with
  | ⟨0, _⟩ => show win1_1.index t 0 * 8192 + 1 * r.val = r.val; rw [(point_facts t).2.2.2.2.1]; omega
  | ⟨1, _⟩ => show win1_1.index t 1 * 256 + 1 * h.val = h.val; rw [(point_facts t).2.2.2.2.2]; omega

/-- The score of row r of the y_a copy against row j of the projection, the two arrays as the region finds them. -/
def sc (c : Dev nD) (r j : Fin 8192) : EReal :=
  ∑ h : Fin 256, Cert.Spec.rd2 (V c main_v1) r h * Cert.Spec.rd2 (V c main_v0) j h

/-- The value stored at point t = 8 i + j, at row p of the block: what the scratch held plus column block j's term
    of the scores of global row 2048 i + p. -/
theorem point_value (c : Dev nD) (t : Fin cfg1.N) (i j : ℕ) (hi : t.val / 8 = i) (hj : t.val % 8 = j)
    (x0 : Vec Ideal S2048x256 .bf16) (x1 : Vec Ideal S8192x256 .bf16) (hx0 : x0 = iblk1 V c 0 t) (hx1 : x1 = iblk1 V c 1 t)
    (v11 : Vec Ideal S2048x1 .f32) (p : Fin 2048) (hb : 2048 * i + p.val < 8192) :
    k1_pay2 (F := Ideal) (rowsOf (grid1.coords t) x1) x0 v11 (ix2 p (0 : Fin 1))
      = v11 (ix2 p (0 : Fin 1)) + Cert.Spec.blockTerm (Cert.Spec.ext (fun col => sc V c ⟨2048 * i + p.val, hb⟩ col)) j := by
  have h32 : t.val < 32 := lt_of_lt_of_eq t.isLt (show cfg1.N = 32 from N_1)
  have hoff : k1_off1 (grid1.coords t) = ![1024 * j, 0] := by rw [k1_off1_eq, (point_facts t).2.1, hj]
  exact step_value (Cert.Spec.rd2 (V c main_v1)) (Cert.Spec.rd2 (V c main_v0)) x0 x1 v11 i j (by omega) (by omega)
    (k1_off1 (grid1.coords t)) (k1_off1_inb (grid1.coords t)) hoff
    (fun p' h => block0_apply V c t i hi x0 hx0 p' h (by omega)) (fun r h => block1_apply V c t x1 hx1 r h) p

/-! ## The scratch and the output block after every point -/

/-- After point n = 8 i + j the scratch holds, at row p, the accumulator of global row 2048 i + p after column block j. -/
theorem scratch_inv (c : Dev nD) : ∀ (n : ℕ) (hn : n < cfg1.N) (i j : ℕ), n / 8 = i → n % 8 = j →
    ∀ (p : Fin 2048) (hb : 2048 * i + p.val < 8192),
      (outsAt1 (F := Ideal) V c n hn).2 (ix2 p (0 : Fin 1))
        = Cert.Spec.acc (Cert.Spec.ext (fun col => sc V c ⟨2048 * i + p.val, hb⟩ col)) j := by
  intro n
  induction n using Nat.strong_induction_on with
  | _ n ih =>
    intro hn i j hi hj p hb
    have h32 : n < 32 := lt_of_lt_of_eq hn (show cfg1.N = 32 from N_1)
    by_cases h0 : n % 8 = 0
    · have h1 : ¬n % 8 = 7 := by omega
      obtain rfl : j = 0 := by omega
      rw [outsAt1_A V c ⟨n, hn⟩ h0 h1]
      dsimp only
      rw [scratch_A]
      refine (point_value V c ⟨n, hn⟩ i 0 hi h0 (iblk1 V c 0 ⟨n, hn⟩) (iblk1 V c 1 ⟨n, hn⟩) rfl rfl (k1_pay1 (F := Ideal)) p hb).trans ?_
      rw [Cert.KernelIdeal.Pay.k1_pay1_apply]
      rfl
    · obtain ⟨j', rfl⟩ : ∃ j', j = j' + 1 := ⟨j - 1, by omega⟩
      have hprev : (outsAt1 (F := Ideal) V c (n - 1) (Nat.lt_of_le_of_lt (Nat.sub_le _ _) hn)).2 (ix2 p (0 : Fin 1))
          = Cert.Spec.acc (Cert.Spec.ext (fun col => sc V c ⟨2048 * i + p.val, hb⟩ col)) j' :=
        ih (n - 1) (by omega) _ i j' (by omega) (by omega) p hb
      by_cases h1 : n % 8 = 7
      · rw [outsAt1_C V c ⟨n, hn⟩ h0 h1]
        dsimp only
        rw [scratch_C]
        refine (point_value V c ⟨n, hn⟩ i (j' + 1) hi hj (iblk1 V c 0 ⟨n, hn⟩) (iblk1 V c 1 ⟨n, hn⟩) rfl rfl _ p hb).trans ?_
        exact congrArg (· + _) hprev
      · rw [outsAt1_B V c ⟨n, hn⟩ h0 h1]
        dsimp only
        rw [scratch_B]
        refine (point_value V c ⟨n, hn⟩ i (j' + 1) hi hj (iblk1 V c 0 ⟨n, hn⟩) (iblk1 V c 1 ⟨n, hn⟩) rfl rfl _ p hb).trans ?_
        exact congrArg (· + _) hprev

/-- (1) The scratch after point 8 i + j, at row p: the accumulator of global row 2048 i + p after column block j. -/
theorem scratch_after (c : Dev nD) (i : Fin 4) (j : Fin 8) (p : Fin 2048) (ht : 8 * i.val + j.val < cfg1.N) :
    (outsAt1 (F := Ideal) V c (8 * i.val + j.val) ht).2 (ix2 p (0 : Fin 1))
      = Cert.Spec.acc (Cert.Spec.ext (fun col => sc V c ⟨2048 * i.val + p.val, by omega⟩ col)) j.val :=
  scratch_inv V c (8 * i.val + j.val) ht i.val j.val (by omega) (by omega) p (by omega)

/-- (2) The output block after the last column block of block row i, at (p, q): the row value of global row 2048 i + p. -/
theorem out_after (c : Dev nD) (i : Fin 4) (p : Fin 2048) (q : Fin 256) (ht : 8 * i.val + 7 < cfg1.N) :
    (outsAt1 (F := Ideal) V c (8 * i.val + 7) ht).1 (ix2 p q)
      = Cert.Spec.kerRow (fun col => sc V c ⟨2048 * i.val + p.val, by omega⟩ col) := by
  have h0 : ¬(8 * i.val + 7) % 8 = 0 := by omega
  have h1 : (8 * i.val + 7) % 8 = 7 := by omega
  have hs := scratch_inv V c (8 * i.val + 7) ht i.val 7 (by omega) (by omega) p (by omega)
  rw [outsAt1_C V c ⟨8 * i.val + 7, ht⟩ h0 h1] at hs ⊢
  dsimp only at hs ⊢
  rw [scratch_C] at hs
  rw [out_C]
  refine (Cert.KernelIdeal.Pay.k1_pay3_apply _ p q).trans ?_
  unfold Cert.Spec.kerRow
  exact congrArg (· * Cert.Spec.cInv256) hs

end Cert.KernelIdeal.Val

end
-- ==== Proof.KI.Value1Arr.lean ====
/-
  The score region's result array after the run, from blocks to the array, from the written blocks' rows alone.

  The grid has 4 × 8 = 32 points, point t = 8 i + j. The result array is cut into four blocks of 2048 rows; point t works
  on row block i and writes it back only when j = 7, after the last of the eight column blocks. So row r of the result
  array lies in row block r / 2048, written once, by the point 8 (r / 2048) + 7, at row r % 2048 of that point's block.
  If each written block holds, in every column, one value per row, f (2048 i + p) at row p of block i, then the array
  ends holding f r at row r in every column.
-/
import proofs.«129995_j6030134083663_2_alg».proof.Proof.KI.Region1
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe

variable (V : (c : Dev nD) → (b : Ref sig .tc) → Buf (Elt Ideal) ((c : Thread nD τ).loc b))

/-- An array whose every column repeats one value per row. -/
def rowsArr (f : Fin 8192 → EReal) : S8192x256.Idx → EReal := fun i => f (i 0)

/-- The result window's block index map, decided over the 32 points: point t = 8 i + j is on row block i, and the map
    never moves along the columns. -/
theorem idx_facts1 : ∀ t : Fin cfg1.N, win1_2.index t (0 : Fin 2) = t.val / 8 ∧ win1_2.index t (1 : Fin 2) = 0 :=
  (by decide +kernel : ∀ t : Fin grid1.N, _)

/-- What the buffers hold after a position does not depend on how the position is spelt. -/
theorem outsAt1_congr (c : Dev nD) {n m : ℕ} (h : n = m) (hn : n < cfg1.N) (hm : m < cfg1.N) :
    outsAt1 (F := Ideal) V c n hn = outsAt1 V c m hm := by
  subst h; rfl

/-- One entry of a block whose rows are rows 2048 i … 2048 i + 2047 of the row values is the array's entry there. -/
theorem row_of_block (X : Vec Ideal S2048x256 .f32) (f : Fin 8192 → EReal) (i : ℕ) (hi : i < 4)
    (hX : ∀ (p : Fin 2048) (q : Fin 256), X (ix2 p q) = f ⟨2048 * i + p.val, by omega⟩)
    (y : S2048x256.Idx) (k : S8192x256.Idx) (hk : (k 0).val = i * 2048 + 1 * (y 0).val) :
    X y = rowsArr f k := by
  obtain ⟨p, q, rfl⟩ : ∃ (p : Fin 2048) (q : Fin 256), y = ix2 p q := ⟨y 0, y 1, eq_ix2 y⟩
  rw [hX]
  unfold rowsArr
  refine congrArg f (Fin.ext ?_)
  show 2048 * i + p.val = (k 0).val
  rw [hk]
  show 2048 * i + p.val = i * 2048 + 1 * p.val
  omega

/-- What a writing point t = 8 i + 7 writes back is block i of the row values' array. -/
theorem flushed1_eq (c : Dev nD) (f : Fin 8192 → EReal)
    (hout : ∀ (i : Fin 4) (p : Fin 2048) (q : Fin 256) (ht : 8 * i.val + 7 < cfg1.N),
      (outsAt1 (F := Ideal) V c (8 * i.val + 7) ht).1 (ix2 p q) = f ⟨2048 * i.val + p.val, by omega⟩)
    (t : Fin cfg1.N) (hf : (cfg1.win 2).flush t = true) :
    (dat1 (F := Ideal) V c).flushed 2 t = ((cfg1.win 2).blk t).view.read (Elt Ideal) (rowsArr f) := by
  have h7 : t.val % 8 = 7 := (Gen.flush1_2 t).mp hf
  have hN : t.val < 32 := lt_of_lt_of_eq t.isLt (show cfg1.N = 32 from Gen.N_1)
  show (cfg1.win 2).cut (grid1.coords t) ((dat1 V c).after 2 t) = _
  rw [after1_2]
  obtain ⟨e0, e1⟩ := idx_facts1 t
  funext j
  show (outsAt1 V c t.val t.isLt).1 j = rowsArr f (((cfg1.win 2).blk t).view.emb j)
  have hN' : grid1.N = 32 := Gen.N_1
  have hlt : 8 * (t.val / 8) + 7 < cfg1.N := by show 8 * (t.val / 8) + 7 < grid1.N; omega
  have hcg : outsAt1 (F := Ideal) V c t.val t.isLt = outsAt1 V c (8 * (t.val / 8) + 7) hlt :=
    outsAt1_congr V c (by omega) _ _
  rw [hcg]
  refine row_of_block _ f (t.val / 8) (by omega) (fun p q => hout ⟨t.val / 8, by omega⟩ p q hlt) j _ ?_
  show win1_2.index t (0 : Fin 2) * 2048 + 1 * (j 0).val = t.val / 8 * 2048 + 1 * (j 0).val
  rw [e0]

/-- An index of the result array is in point t's block iff each coordinate is in the block's range on its axis. -/
theorem mem_blk1 (t : Fin cfg1.N) (i : S8192x256.Idx) :
    i ∈ ((cfg1.win 2).blk t).view.set
      ↔ ∀ a : Fin 2, win1_2.index t a * S2048x256.size a ≤ (i a).val ∧ (i a).val < win1_2.index t a * S2048x256.size a + S2048x256.size a := by
  show i ∈ ((View.whole main_v2).slice (win1_2.rect t)).set ↔ _
  rw [View.set_slice_whole, Rect.mem_set_unit]
  exact Iff.rfl

/-- The four written row blocks fill the result array: row r is in the block of the writing point 8 (r / 2048) + 7. -/
theorem cover1 (i : S8192x256.Idx) : ∃ t : Fin cfg1.N, (cfg1.win 2).flush t = true ∧ i ∈ ((cfg1.win 2).blk t).view.set := by
  have hN : grid1.N = 32 := Gen.N_1
  have hi0 : (i 0).val < 8192 := (i 0).isLt
  have hi1 : (i 1).val < 256 := (i 1).isLt
  have hlt : 8 * ((i 0).val / 2048) + 7 < grid1.N := by omega
  refine ⟨(⟨8 * ((i 0).val / 2048) + 7, hlt⟩ : Fin cfg1.N), (Gen.flush1_2 _).mpr (by show (8 * ((i 0).val / 2048) + 7) % 8 = 7; omega), ?_⟩
  rw [mem_blk1]
  obtain ⟨e0, e1⟩ := idx_facts1 (⟨8 * ((i 0).val / 2048) + 7, hlt⟩ : Fin cfg1.N)
  have e0' : win1_2.index (⟨8 * ((i 0).val / 2048) + 7, hlt⟩ : Fin cfg1.N) (0 : Fin 2) = (8 * ((i 0).val / 2048) + 7) / 8 := e0
  intro a
  match a with
  | ⟨0, _⟩ =>
    show win1_2.index _ (0 : Fin 2) * 2048 ≤ (i 0).val ∧ (i 0).val < win1_2.index _ (0 : Fin 2) * 2048 + 2048
    rw [e0']; omega
  | ⟨1, _⟩ =>
    show win1_2.index _ (1 : Fin 2) * 256 ≤ (i 1).val ∧ (i 1).val < win1_2.index _ (1 : Fin 2) * 256 + 256
    rw [e1]; omega

/-- After the run the result array holds the row values, every column the same. -/
theorem final1 (c : Dev nD) (f : Fin 8192 → EReal)
    (hout : ∀ (i : Fin 4) (p : Fin 2048) (q : Fin 256) (ht : 8 * i.val + 7 < cfg1.N),
      (outsAt1 (F := Ideal) V c (8 * i.val + 7) ht).1 (ix2 p q) = f ⟨2048 * i.val + p.val, by omega⟩) :
    (dat1 (F := Ideal) V c).arrAt 2 cfg1.N = rowsArr f :=
  (dat1 V c).arrAt_eq_of_cover 2 _ (fun t hf => flushed1_eq V c f hout t hf) cover1

/-- The result array of the score region, entry by entry: row r is what the point 8 (r / 2048) + 7 wrote back into
    row block r / 2048 at row r % 2048, the same in every column. -/
theorem arrAt1_of_rows (c : Dev nD) (f : Fin 8192 → EReal)
    (hout : ∀ (i : Fin 4) (p : Fin 2048) (q : Fin 256) (ht : 8 * i.val + 7 < cfg1.N),
      (outsAt1 (F := Ideal) V c (8 * i.val + 7) ht).1 (ix2 p q) = f ⟨2048 * i.val + p.val, by omega⟩)
    (r : Fin 8192) (q : Fin 256) :
    (dat1 (F := Ideal) V c).arrAt 2 cfg1.N (ix2 r q) = f r := by
  rw [final1 V c f hout]
  rfl

end Cert.KernelIdeal.Val

end
-- ==== Proof.RefValue.lean ====
/-
  The reference program's result as a function of the four argument arrays, on the extended reals.

  Every stage of the reference reads its operands at an index computed from the result's index. Composing those
  index maps along the program, the entry (p, q) of the result is the row value of row p: with
  score p j = ∑ h, y_a p h · ((∑ t, y_b j t · W h t) + b h), it is (0 + ∑ j, 1 / (1 + exp (− score p j))) / 256,
  the same in every column q.
-/
import proofs.«129995_j6030134083663_2_alg».proof.Defs
import proofs.«129995_j6030134083663_2_alg».proof.Proof.Gen.ReferenceIdeal.Read
import proofs.«129995_j6030134083663_2_alg».proof.Proof.Gen.Pre_finite_inputs
import proofs.«129995_j6030134083663_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-! ## The composed index maps, on indices built from their coordinates -/

theorem idx_v15_v14 (p : Fin 8192) (q : Fin 256) : idx_main_v14 (idx_main_v15 (ValueIdx.ix2 p q)) = ValueIdx.ix1 p :=
  funext fun a => Fin.ext (by match a with | ⟨0, _⟩ => rfl)

theorem idx_v11 (p k : Fin 8192) : idx_main_v11 (ValueIdx.ix1 p) k = ValueIdx.ix2 p k :=
  funext fun a => Fin.ext (by match a with | ⟨0, _⟩ => rfl | ⟨1, _⟩ => rfl)

theorem lidx_v4 (p j : Fin 8192) (h : Fin 256) : lidx_main_v4 (ValueIdx.ix2 p j) h = ValueIdx.ix2 p h :=
  funext fun a => Fin.ext (by match a with | ⟨0, _⟩ => rfl | ⟨1, _⟩ => rfl)

theorem ridx_v4 (p j : Fin 8192) (h : Fin 256) : ridx_main_v4 (ValueIdx.ix2 p j) h = ValueIdx.ix2 j h :=
  funext fun a => Fin.ext (by match a with | ⟨0, _⟩ => rfl | ⟨1, _⟩ => rfl)

theorem lidx_v0 (j : Fin 8192) (h t : Fin 256) : lidx_main_v0 (ValueIdx.ix2 j h) t = ValueIdx.ix2 j t :=
  funext fun a => Fin.ext (by match a with | ⟨0, _⟩ => rfl | ⟨1, _⟩ => rfl)

theorem ridx_v0 (j : Fin 8192) (h t : Fin 256) : ridx_main_v0 (ValueIdx.ix2 j h) t = ValueIdx.ix2 h t :=
  funext fun a => Fin.ext (by match a with | ⟨0, _⟩ => rfl | ⟨1, _⟩ => rfl)

theorem idx_v2_v1 (j : Fin 8192) (h : Fin 256) : idx_main_v1 (idx_main_v2 (ValueIdx.ix2 j h)) = ValueIdx.ix1 h :=
  funext fun a => Fin.ext (by match a with | ⟨0, _⟩ => rfl)

/-! ## The result, entry by entry -/

/-- Entry (p, q) of the reference's result is the row value of row p's scores. -/
theorem result_apply (a0 a1 : (⟨S8192x256, .f32⟩ : BufTy).Contents (Elt Ideal)) (a2 : (⟨S256x256, .f32⟩ : BufTy).Contents (Elt Ideal))
    (a3 : (⟨S256, .f32⟩ : BufTy).Contents (Elt Ideal)) (p : Fin 8192) (q : Fin 256) :
    val_main_v15 (F := Ideal) a0 a1 a2 a3 (ValueIdx.ix2 p q)
      = Cert.Spec.refRow (fun j => Cert.Spec.score (Cert.Spec.rd2 a0) (Cert.Spec.rd2 a1) (Cert.Spec.rd2 a2) (Cert.Spec.rd1 a3) p j) := by
  rw [val_main_v15_apply, val_main_v14_apply, val_main_v13_apply, val_main_v11_apply, val_main_v12_apply,
    val_main_cst_2_apply, val_main_cst_1_apply, idx_v15_v14]
  simp only [idx_v11, val_main_v10_apply, val_main_v9_apply, val_main_cst_0_apply, val_main_v8_apply, val_main_v7_apply,
    val_main_cst_apply, val_main_v6_apply, val_main_v5_apply, val_main_v4_apply, lidx_v4, ridx_v4, val_main_v3_apply,
    val_main_v0_apply, lidx_v0, ridx_v0, val_main_v2_apply, val_main_v1_apply, idx_v2_v1,
    Ideal.hostDivf_def, Ideal.addf_def, Ideal.hostUnary_exp_def, Ideal.hostNegf_def, Ideal.negf_def, Ideal.ofBits_def]
  rfl

/-! ## The run -/

/-- Every weakly fair execution of the reference terminates with the result array holding, at every index, the row
    value of the index's row (first coordinate) — a function of the four argument arrays at launch — and with the
    argument arrays unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = (fun i : S8192x256.Idx => Cert.Spec.refRow (fun j => Cert.Spec.score
              (Cert.Spec.rd2 (m ((c.tc : Thread nD τ).loc main_arg0))) (Cert.Spec.rd2 (m ((c.tc : Thread nD τ).loc main_arg1)))
              (Cert.Spec.rd2 (m ((c.tc : Thread nD τ).loc main_arg2))) (Cert.Spec.rd1 (m ((c.tc : Thread nD τ).loc main_arg3)))
              (i 0) j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Cert.ReferenceIdeal.Value.run (F := Ideal) m ρ)
  refine (val_main_v15_eq (F := Ideal) _ _ _ _).trans (funext fun i => ?_)
  obtain ⟨p, q, rfl⟩ : ∃ (p : Fin 8192) (q : Fin 256), i = ValueIdx.ix2 p q := ⟨i 0, i 1, ValueIdx.eq_ix2 i⟩
  exact result_apply _ _ _ _ p q

/-- The reference runs and leaves its argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of the pairwise-score kernel against its reference.

  The reference forms proj = y_b · Wᵀ + b and the 8192 × 8192 score matrix y_a · projᵀ, applies the logistic function
  1 / (1 + e^(−s)) to every score, sums each row, divides by 256 and repeats the row value in all 256 columns. The
  kernel computes proj in a first pipelined call (four blocks of 2048 rows), converts y_a, and in a second call walks
  the score matrix by blocks of 2048 rows and 1024 columns, keeping per row an accumulator in scratch memory: a
  block adds 512 + ½ · ∑ tanh (½ · s) over its 1024 columns, the accumulator is reset before a row block's first
  column block and after its eighth the row value is the accumulator times 1/256.

  On the extended reals the two agree because 1 / (1 + e^(−s)) = ½ + ½ · tanh (s / 2) at every s, the infinities
  included (both sides are 1 at +∞ and 0 at −∞), because every summand is a real number, so the sums regroup freely, and
  because the product with 1/256 is the quotient by 256. No finiteness of the inputs is used. A change of float
  format is the identity on the extended reals, so the bf16 copies of y_a and of proj are the arrays themselves.

  The three frames: each kernel program runs region by region, each region grid point by grid point over the body's
  triple (the score kernel in its three cases: first, middle and last column block); the reference's frame is its run
  with the result dropped. Nothing was rewritten by the idealization, so the preservation claim is the true proposition.
-/
import proofs.«129995_j6030134083663_2_alg».proof.Defs
import proofs.«129995_j6030134083663_2_alg».proof.Proof.Gen.Kernel
import proofs.«129995_j6030134083663_2_alg».proof.Proof.Gen.KernelIdeal
import proofs.«129995_j6030134083663_2_alg».proof.Proof.Gen.ReferenceIdeal
import proofs.«129995_j6030134083663_2_alg».proof.Proof.Gen.Pre_finite_inputs
import proofs.«129995_j6030134083663_2_alg».proof.Proof.K.Segs
import proofs.«129995_j6030134083663_2_alg».proof.Proof.KI.Segs
import proofs.«129995_j6030134083663_2_alg».proof.Proof.KI.Glue
import proofs.«129995_j6030134083663_2_alg».proof.Proof.KI.Value1
import proofs.«129995_j6030134083663_2_alg».proof.Proof.KI.Value1Arr
import proofs.«129995_j6030134083663_2_alg».proof.Proof.RefValue

noncomputable section

namespace Cert.Proof

open Idealize.ShloMosaic Idealize.SL.Sem

/-- The kernel program as printed terminates, faults nowhere and leaves its arguments unchanged. -/
theorem frame_kernel : Cert.frame_Kernel := fun m ρ _ => Cert.Kernel.Fr.frame (F := Bits) m ρ

/-- The same of the kernel program read on the extended reals. -/
theorem frame_kernelIdeal : Cert.frame_KernelIdeal := fun m ρ _ => Cert.KernelIdeal.Fr.frame (F := Ideal) m ρ

/-- The idealization rewrote no operation. -/
theorem preserves : Cert.preserves_Kernel_KernelIdeal := trivial

/-- Run from memories agreeing on the four arguments, the kernel's result array and the reference's are one function of
    the arguments: row r holds the row sum of the logistic function over the scores of row r, divided by 256. -/
theorem algebraic : Cert.algebraic_KernelIdeal_ReferenceIdeal := by
  intro m ρ m' ρ' _ hagree
  refine ⟨fun c => Cert.KernelIdeal.Fr.outs m 3 Cert.KernelIdeal.main_v2 c, Cert.KernelIdeal.Fr.run_main (F := Ideal) m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2]
  refine (Cert.KernelIdeal.Val.result_eq m c fun r q => ?_).symm
  exact Cert.KernelIdeal.Val.arrAt1_of_rows (Cert.KernelIdeal.Fr.Ve1 m) c
    (fun r => Cert.Spec.kerRow (fun col => Cert.KernelIdeal.Val.sc (Cert.KernelIdeal.Fr.Ve1 m) c r col))
    (fun i p q ht => Cert.KernelIdeal.Val.out_after (Cert.KernelIdeal.Fr.Ve1 m) c i p q ht) r q

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefValue.frame_ri, preserves, algebraic⟩

end Cert.Proof

end
